-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_4000000" .f32 0x348637BD#32 ((1 / 4000000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5x20000x3 : Shape := ⟨3, ![5, 20000, 3]⟩
abbrev S20000x3 : Shape := ⟨2, ![20000, 3]⟩
abbrev S4000000 : Shape := ⟨1, ![4000000]⟩
abbrev S_ : Shape := ⟨0, ![]⟩

class Facts : Prop where
  bcast_S_S5x20000x3 : S_.BroadcastsInDim S5x20000x3 (![] : Fin 0 → Fin S5x20000x3.rank)
  reducesTo_S5x20000x3_S_d0_1_2 : S5x20000x3.ReducesTo [0, 1, 2] S_
  h_S_ : 0 < S_.numel
  bcast_S_S20000x3 : S_.BroadcastsInDim S20000x3 (![] : Fin 0 → Fin S20000x3.rank)
  reducesTo_S20000x3_S_d0_1 : S20000x3.ReducesTo [0, 1] S_

variable [Facts]

def fn {F : FTy → Type} [FloatOps F] (main_arg0 : FVec F S5x20000x3 .f32) (main_arg1 : FVec F S20000x3 .f32) (main_arg2 : IVec S4000000 32) (main_arg3 : IVec S4000000 32) : IVec S_ 1 :=
  let main_v0 : FVec F S5x20000x3 .f32 := Host.absf main_arg0
  let main_cst : FVec F S_ .f32 := constant S_ .f32 0x7F800000#32
  let main_v1 : FVec F S5x20000x3 .f32 := broadcastInDim S5x20000x3 ![] bcast_S_S5x20000x3 main_cst
  let main_v2 : IVec S5x20000x3 1 := cmpf .olt main_v0 main_v1
  let main_c : IVec S_ 1 := constantI S_ 1 1#1
  let main_v3 : IVec S_ 1 := (fun x v => Host.reduce IntOp.andi x v reducesTo_S5x20000x3_S_d0_1_2 h_S_) main_v2 main_c
  let main_v4 : FVec F S20000x3 .f32 := Host.absf main_arg1
  let main_cst_0 : FVec F S_ .f32 := constant S_ .f32 0x7F800000#32
  let main_v5 : FVec F S20000x3 .f32 := broadcastInDim S20000x3 ![] bcast_S_S20000x3 main_cst_0
  let main_v6 : IVec S20000x3 1 := cmpf .olt main_v4 main_v5
  let main_c_1 : IVec S_ 1 := constantI S_ 1 1#1
  let main_v7 : IVec S_ 1 := (fun x v => Host.reduce IntOp.andi x v reducesTo_S20000x3_S_d0_1 h_S_) main_v6 main_c_1
  let main_v8 : IVec S_ 1 := andi main_v3 main_v7
  main_v8
-- ==== Kernel.lean ====
abbrev S5x20000x3 : Shape := ⟨3, ![5, 20000, 3]⟩
abbrev S20000x3 : Shape := ⟨2, ![20000, 3]⟩
abbrev S4000000 : Shape := ⟨1, ![4000000]⟩
abbrev S5x3x20000 : Shape := ⟨3, ![5, 3, 20000]⟩
abbrev S3x20000 : Shape := ⟨2, ![3, 20000]⟩
abbrev S_ : Shape := ⟨0, ![]⟩
abbrev S4000000x1 : Shape := ⟨2, ![4000000, 1]⟩
abbrev S5x3x4000000 : Shape := ⟨3, ![5, 3, 4000000]⟩
abbrev S3x4000000 : Shape := ⟨2, ![3, 4000000]⟩
abbrev S5x1 : Shape := ⟨2, ![5, 1]⟩
abbrev S5x3x32000 : Shape := ⟨3, ![5, 3, 32000]⟩
abbrev S3x32000 : Shape := ⟨2, ![3, 32000]⟩
abbrev S5x32000 : Shape := ⟨2, ![5, 32000]⟩
abbrev S32000 : Shape := ⟨1, ![32000]⟩
abbrev S1x32000 : Shape := ⟨2, ![1, 32000]⟩
abbrev S5 : Shape := ⟨1, ![5]⟩

abbrev nBuf : Space → Nat
  | .hbm => 44
  | .vmem => 9
  | .smem => 0
  | _ => 0

abbrev bufTy : (tb : Table) → Fin (tcTables nBuf tb) → BufTy
  | .hbm, ⟨0, _⟩ => ⟨S5x20000x3, .f32⟩
  | .hbm, ⟨1, _⟩ => ⟨S20000x3, .f32⟩
  | .hbm, ⟨2, _⟩ => ⟨S4000000, .i32⟩
  | .hbm, ⟨3, _⟩ => ⟨S4000000, .i32⟩
  | .hbm, ⟨4, _⟩ => ⟨S5x3x20000, .f32⟩
  | .hbm, ⟨5, _⟩ => ⟨S3x20000, .f32⟩
  | .hbm, ⟨6, _⟩ => ⟨S_, .i32⟩
  | .hbm, ⟨7, _⟩ => ⟨S4000000, .i32⟩
  | .hbm, ⟨8, _⟩ => ⟨S4000000, .i1⟩
  | .hbm, ⟨9, _⟩ => ⟨S_, .i32⟩
  | .hbm, ⟨10, _⟩ => ⟨S4000000, .i32⟩
  | .hbm, ⟨11, _⟩ => ⟨S4000000, .i32⟩
  | .hbm, ⟨12, _⟩ => ⟨S4000000, .i32⟩
  | .hbm, ⟨13, _⟩ => ⟨S4000000x1, .i32⟩
  | .hbm, ⟨14, _⟩ => ⟨S5x3x4000000, .f32⟩
  | .hbm, ⟨15, _⟩ => ⟨S_, .i32⟩
  | .hbm, ⟨16, _⟩ => ⟨S4000000, .i32⟩
  | .hbm, ⟨17, _⟩ => ⟨S4000000, .i1⟩
  | .hbm, ⟨18, _⟩ => ⟨S_, .i32⟩
  | .hbm, ⟨19, _⟩ => ⟨S4000000, .i32⟩
  | .hbm, ⟨20, _⟩ => ⟨S4000000, .i32⟩
  | .hbm, ⟨21, _⟩ => ⟨S4000000, .i32⟩
  | .hbm, ⟨22, _⟩ => ⟨S4000000x1, .i32⟩
  | .hbm, ⟨23, _⟩ => ⟨S5x3x4000000, .f32⟩
  | .hbm, ⟨24, _⟩ => ⟨S_, .i32⟩
  | .hbm, ⟨25, _⟩ => ⟨S4000000, .i32⟩
  | .hbm, ⟨26, _⟩ => ⟨S4000000, .i1⟩
  | .hbm, ⟨27, _⟩ => ⟨S_, .i32⟩
  | .hbm, ⟨28, _⟩ => ⟨S4000000, .i32⟩
  | .hbm, ⟨29, _⟩ => ⟨S4000000, .i32⟩
  | .hbm, ⟨30, _⟩ => ⟨S4000000, .i32⟩
  | .hbm, ⟨31, _⟩ => ⟨S4000000x1, .i32⟩
  | .hbm, ⟨32, _⟩ => ⟨S3x4000000, .f32⟩
  | .hbm, ⟨33, _⟩ => ⟨S_, .i32⟩
  | .hbm, ⟨34, _⟩ => ⟨S4000000, .i32⟩
  | .hbm, ⟨35, _⟩ => ⟨S4000000, .i1⟩
  | .hbm, ⟨36, _⟩ => ⟨S_, .i32⟩
  | .hbm, ⟨37, _⟩ => ⟨S4000000, .i32⟩
  | .hbm, ⟨38, _⟩ => ⟨S4000000, .i32⟩
  | .hbm, ⟨39, _⟩ => ⟨S4000000, .i32⟩
  | .hbm, ⟨40, _⟩ => ⟨S4000000x1, .i32⟩
  | .hbm, ⟨41, _⟩ => ⟨S3x4000000, .f32⟩
  | .hbm, ⟨42, _⟩ => ⟨S5x1, .f32⟩
  | .hbm, ⟨43, _⟩ => ⟨S5, .f32⟩
  | .local _ .vmem, ⟨0, _⟩ => ⟨S5x3x32000, .f32⟩
  | .local _ .vmem, ⟨1, _⟩ => ⟨S5x3x32000, .f32⟩
  | .local _ .vmem, ⟨2, _⟩ => ⟨S5x3x32000, .f32⟩
  | .local _ .vmem, ⟨3, _⟩ => ⟨S5x3x32000, .f32⟩
  | .local _ .vmem, ⟨4, _⟩ => ⟨S3x32000, .f32⟩
  | .local _ .vmem, ⟨5, _⟩ => ⟨S3x32000, .f32⟩
  | .local _ .vmem, ⟨6, _⟩ => ⟨S3x32000, .f32⟩
  | .local _ .vmem, ⟨7, _⟩ => ⟨S3x32000, .f32⟩
  | .local _ .vmem, ⟨8, _⟩ => ⟨S5x1, .f32⟩
  | _, _ => ⟨S5x20000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_3 : Ref sig .tc := ⟨.hbm, 24, rfl⟩
abbrev main_v16 : Ref sig .tc := ⟨.hbm, 25, rfl⟩
abbrev main_v17 : Ref sig .tc := ⟨.hbm, 26, rfl⟩
abbrev main_c_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_5 : Ref sig .tc := ⟨.hbm, 33, rfl⟩
abbrev main_v23 : Ref sig .tc := ⟨.hbm, 34, rfl⟩
abbrev main_v24 : Ref sig .tc := ⟨.hbm, 35, rfl⟩
abbrev main_c_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![125], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5x3x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5x3x32000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x32000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x32000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S5x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  transposes_S5x20000x3_S5x3x20000_0_2_1 : S5x20000x3.Transposes [0, 2, 1] S5x3x20000
  transposes_S20000x3_S3x20000_1_0 : S20000x3.Transposes [1, 0] S3x20000
  bcast_S_S4000000 : S_.BroadcastsInDim S4000000 (![] : Fin 0 → Fin S4000000.rank)
  bcast_S4000000_S4000000x1_0 : S4000000.BroadcastsInDim S4000000x1 (![0] : Fin 1 → Fin S4000000x1.rank)
  inb_S5x1_S5x1_0_0 : ∀ a, (![0, 0] : Fin 2 → Nat) a + S5x1.size a ≤ S5x1.size a
  h_S5x1 : 0 < S5x1.numel
  inb_S5x3x32000_S5x3x32000_0_0_0 : ∀ a, (![0, 0, 0] : Fin 3 → Nat) a + S5x3x32000.size a ≤ S5x3x32000.size a
  h_S5x3x32000 : 0 < S5x3x32000.numel
  shapeCasts_S5x3x32000_S5x3x32000 : S5x3x32000.ShapeCasts S5x3x32000
  reduces_S5x3x32000_S5x32000 : S5x3x32000.Reduces [1] S5x32000
  inb_S3x32000_S3x32000_0_0 : ∀ a, (![0, 0] : Fin 2 → Nat) a + S3x32000.size a ≤ S3x32000.size a
  h_S3x32000 : 0 < S3x32000.numel
  shapeCasts_S3x32000_S3x32000 : S3x32000.ShapeCasts S3x32000
  reduces_S3x32000_S32000 : S3x32000.Reduces [0] S32000
  shapeCasts_S32000_S1x32000 : S32000.ShapeCasts S1x32000
  broadcasts_S1x32000_S5x32000 : S1x32000.Broadcasts S5x32000
  natLt_1_32 : 1 < 32
  reduces_S5x32000_S5 : S5x32000.Reduces [1] S5
  shapeCasts_S5_S5x1 : S5.ShapeCasts S5x1
  shapeCasts_S5x1_S5x1 : S5x1.ShapeCasts S5x1
  shapeCasts_S5x1_S5 : S5x1.ShapeCasts S5
  gather_S5x3x20000_S4000000x1_S5x3x4000000_01_2_n_n_2_1_531_wf : GatherDims.WF S5x3x20000 S4000000x1 S5x3x4000000 [0, 1] [2] [] [2] [] 1 ![5, 3, 1]
  gather_S3x20000_S4000000x1_S3x4000000_0_1_n_n_1_1_31_wf : GatherDims.WF S3x20000 S4000000x1 S3x4000000 [0] [1] [] [1] [] 1 ![3, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5x3x32000.size a ≤ S5x3x4000000.size a
  hwx0_0 : ∀ i : grid0.Coords, EltTy.bits .f32 = 32 ∨ (Rect.block (s := S5x3x4000000) S5x3x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5x3x32000.size a ≤ S5x3x4000000.size a
  hwx0_1 : ∀ i : grid0.Coords, EltTy.bits .f32 = 32 ∨ (Rect.block (s := S5x3x4000000) S5x3x32000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x32000.size a ≤ S3x4000000.size a
  hwx0_2 : ∀ i : grid0.Coords, EltTy.bits .f32 = 32 ∨ (Rect.block (s := S3x4000000) S3x32000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3x32000.size a ≤ S3x4000000.size a
  hwx0_3 : ∀ i : grid0.Coords, EltTy.bits .f32 = 32 ∨ (Rect.block (s := S3x4000000) S3x32000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S5x1.size a ≤ S5x1.size a
  hwx0_4 : ∀ i : grid0.Coords, EltTy.bits .f32 = 32 ∨ (Rect.block (s := S5x1) S5x1.size (cc0_transform_4 i) (hinb0_4 i)).WholeWords (EltTy.packing .f32)

variable [Facts₀]

def gather_S5x3x20000_S4000000x1_S5x3x4000000_01_2_n_n_2_1_531 : GatherDims S5x3x20000 S4000000x1 S5x3x4000000 where
  offsetDims := [0, 1]
  collapsedSliceDims := [2]
  operandBatchingDims := []
  startIndicesBatchingDims := []
  startIndexMap := [2]
  indexVectorDim := 1
  sliceSizes := ![5, 3, 1]
  wf := gather_S5x3x20000_S4000000x1_S5x3x4000000_01_2_n_n_2_1_531_wf
def gather_S3x20000_S4000000x1_S3x4000000_0_1_n_n_1_1_31 : GatherDims S3x20000 S4000000x1 S3x4000000 where
  offsetDims := [0]
  collapsedSliceDims := [1]
  operandBatchingDims := []
  startIndicesBatchingDims := []
  startIndexMap := [1]
  indexVectorDim := 1
  sliceSizes := ![3, 1]
  wf := gather_S3x20000_S4000000x1_S3x4000000_0_1_n_n_1_1_31_wf

abbrev win0_0 : Pipeline.Window sig grid0 :=
  Pipeline.Window.ofSpec (Memref.whole main_v8) S5x3x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5x3x32000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S3x32000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S3x32000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v30) S5x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S5x20000x3 : Shape := ⟨3, ![5, 20000, 3]⟩
abbrev S20000x3 : Shape := ⟨2, ![20000, 3]⟩
abbrev S4000000 : Shape := ⟨1, ![4000000]⟩
abbrev S4 : Shape := ⟨1, ![4]⟩
abbrev S_ : Shape := ⟨0, ![]⟩
abbrev S4000000x1 : Shape := ⟨2, ![4000000, 1]⟩
abbrev S5x4000000x3 : Shape := ⟨3, ![5, 4000000, 3]⟩
abbrev S5x4000000 : Shape := ⟨2, ![5, 4000000]⟩
abbrev S4000000x3 : Shape := ⟨2, ![4000000, 3]⟩
abbrev S1x4000000 : Shape := ⟨2, ![1, 4000000]⟩
abbrev S5x4000000x1 : Shape := ⟨3, ![5, 4000000, 1]⟩
abbrev S1x1x4 : Shape := ⟨3, ![1, 1, 4]⟩
abbrev S5x4000000x4 : Shape := ⟨3, ![5, 4000000, 4]⟩
abbrev S5 : Shape := ⟨1, ![5]⟩

abbrev nBuf : Space → Nat
  | .hbm => 71
  | .vmem => 0
  | .smem => 0
  | _ => 0

abbrev bufTy : (tb : Table) → Fin (tcTables nBuf tb) → BufTy
  | .hbm, ⟨0, _⟩ => ⟨S5x20000x3, .f32⟩
  | .hbm, ⟨1, _⟩ => ⟨S20000x3, .f32⟩
  | .hbm, ⟨2, _⟩ => ⟨S4000000, .i32⟩
  | .hbm, ⟨3, _⟩ => ⟨S4000000, .i32⟩
  | .hbm, ⟨4, _⟩ => ⟨S4, .f32⟩
  | .hbm, ⟨5, _⟩ => ⟨S_, .i32⟩
  | .hbm, ⟨6, _⟩ => ⟨S4000000, .i32⟩
  | .hbm, ⟨7, _⟩ => ⟨S4000000, .i1⟩
  | .hbm, ⟨8, _⟩ => ⟨S_, .i32⟩
  | .hbm, ⟨9, _⟩ => ⟨S4000000, .i32⟩
  | .hbm, ⟨10, _⟩ => ⟨S4000000, .i32⟩
  | .hbm, ⟨11, _⟩ => ⟨S4000000, .i32⟩
  | .hbm, ⟨12, _⟩ => ⟨S4000000x1, .i32⟩
  | .hbm, ⟨13, _⟩ => ⟨S5x4000000x3, .f32⟩
  | .hbm, ⟨14, _⟩ => ⟨S_, .i32⟩
  | .hbm, ⟨15, _⟩ => ⟨S4000000, .i32⟩
  | .hbm, ⟨16, _⟩ => ⟨S4000000, .i1⟩
  | .hbm, ⟨17, _⟩ => ⟨S_, .i32⟩
  | .hbm, ⟨18, _⟩ => ⟨S4000000, .i32⟩
  | .hbm, ⟨19, _⟩ => ⟨S4000000, .i32⟩
  | .hbm, ⟨20, _⟩ => ⟨S4000000, .i32⟩
  | .hbm, ⟨21, _⟩ => ⟨S4000000x1, .i32⟩
  | .hbm, ⟨22, _⟩ => ⟨S5x4000000x3, .f32⟩
  | .hbm, ⟨23, _⟩ => ⟨S5x4000000x3, .f32⟩
  | .hbm, ⟨24, _⟩ => ⟨S5x4000000x3, .f32⟩
  | .hbm, ⟨25, _⟩ => ⟨S_, .f32⟩
  | .hbm, ⟨26, _⟩ => ⟨S5x4000000, .f32⟩
  | .hbm, ⟨27, _⟩ => ⟨S5x4000000, .f32⟩
  | .hbm, ⟨28, _⟩ => ⟨S_, .i32⟩
  | .hbm, ⟨29, _⟩ => ⟨S4000000, .i32⟩
  | .hbm, ⟨30, _⟩ => ⟨S4000000, .i1⟩
  | .hbm, ⟨31, _⟩ => ⟨S_, .i32⟩
  | .hbm, ⟨32, _⟩ => ⟨S4000000, .i32⟩
  | .hbm, ⟨33, _⟩ => ⟨S4000000, .i32⟩
  | .hbm, ⟨34, _⟩ => ⟨S4000000, .i32⟩
  | .hbm, ⟨35, _⟩ => ⟨S4000000x1, .i32⟩
  | .hbm, ⟨36, _⟩ => ⟨S4000000x3, .f32⟩
  | .hbm, ⟨37, _⟩ => ⟨S_, .i32⟩
  | .hbm, ⟨38, _⟩ => ⟨S4000000, .i32⟩
  | .hbm, ⟨39, _⟩ => ⟨S4000000, .i1⟩
  | .hbm, ⟨40, _⟩ => ⟨S_, .i32⟩
  | .hbm, ⟨41, _⟩ => ⟨S4000000, .i32⟩
  | .hbm, ⟨42, _⟩ => ⟨S4000000, .i32⟩
  | .hbm, ⟨43, _⟩ => ⟨S4000000, .i32⟩
  | .hbm, ⟨44, _⟩ => ⟨S4000000x1, .i32⟩
  | .hbm, ⟨45, _⟩ => ⟨S4000000x3, .f32⟩
  | .hbm, ⟨46, _⟩ => ⟨S4000000x3, .f32⟩
  | .hbm, ⟨47, _⟩ => ⟨S4000000x3, .f32⟩
  | .hbm, ⟨48, _⟩ => ⟨S_, .f32⟩
  | .hbm, ⟨49, _⟩ => ⟨S4000000, .f32⟩
  | .hbm, ⟨50, _⟩ => ⟨S4000000, .f32⟩
  | .hbm, ⟨51, _⟩ => ⟨S1x4000000, .f32⟩
  | .hbm, ⟨52, _⟩ => ⟨S5x4000000, .f32⟩
  | .hbm, ⟨53, _⟩ => ⟨S5x4000000, .f32⟩
  | .hbm, ⟨54, _⟩ => ⟨S5x4000000, .f32⟩
  | .hbm, ⟨55, _⟩ => ⟨S5x4000000x1, .f32⟩
  | .hbm, ⟨56, _⟩ => ⟨S1x1x4, .f32⟩
  | .hbm, ⟨57, _⟩ => ⟨S5x4000000x4, .f32⟩
  | .hbm, ⟨58, _⟩ => ⟨S5x4000000x4, .f32⟩
  | .hbm, ⟨59, _⟩ => ⟨S5x4000000x4, .i1⟩
  | .hbm, ⟨60, _⟩ => ⟨S5x4000000x4, .f32⟩
  | .hbm, ⟨61, _⟩ => ⟨S_, .f32⟩
  | .hbm, ⟨62, _⟩ => ⟨S5x4000000, .f32⟩
  | .hbm, ⟨63, _⟩ => ⟨S_, .f32⟩
  | .hbm, ⟨64, _⟩ => ⟨S5x4000000, .f32⟩
  | .hbm, ⟨65, _⟩ => ⟨S5x4000000, .f32⟩
  | .hbm, ⟨66, _⟩ => ⟨S_, .f32⟩
  | .hbm, ⟨67, _⟩ => ⟨S5, .f32⟩
  | .hbm, ⟨68, _⟩ => ⟨S_, .f32⟩
  | .hbm, ⟨69, _⟩ => ⟨S5, .f32⟩
  | .hbm, ⟨70, _⟩ => ⟨S5, .f32⟩
  | _, _ => ⟨S5x20000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_cst : Ref sig .tc := ⟨.hbm, 25, rfl⟩
abbrev main_call0_v1 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call1_v0 : Ref sig .tc := ⟨.hbm, 47, rfl⟩
abbrev main_call1_cst : Ref sig .tc := ⟨.hbm, 48, rfl⟩
abbrev main_call1_v1 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩

abbrev nD : Nat := 1
abbrev τ : Topo := Topo.v7x

variable {F : FTy → Type} [FloatOps F]

class Facts₀ : Prop where
  bcast_S_S4000000 : S_.BroadcastsInDim S4000000 (![] : Fin 0 → Fin S4000000.rank)
  bcast_S4000000_S4000000x1_0 : S4000000.BroadcastsInDim S4000000x1 (![0] : Fin 1 → Fin S4000000x1.rank)
  reducesTo_S5x4000000x3_S5x4000000_d2 : S5x4000000x3.ReducesTo [2] S5x4000000
  h_S_ : 0 < S_.numel
  reducesTo_S4000000x3_S4000000_d1 : S4000000x3.ReducesTo [1] S4000000
  bcast_S4000000_S1x4000000_1 : S4000000.BroadcastsInDim S1x4000000 (![1] : Fin 1 → Fin S1x4000000.rank)
  bcast_S1x4000000_S5x4000000_0_1 : S1x4000000.BroadcastsInDim S5x4000000 (![0, 1] : Fin 2 → Fin S5x4000000.rank)
  bcast_S5x4000000_S5x4000000x1_0_1 : S5x4000000.BroadcastsInDim S5x4000000x1 (![0, 1] : Fin 2 → Fin S5x4000000x1.rank)
  bcast_S4_S1x1x4_2 : S4.BroadcastsInDim S1x1x4 (![2] : Fin 1 → Fin S1x1x4.rank)
  bcast_S5x4000000x1_S5x4000000x4_0_1_2 : S5x4000000x1.BroadcastsInDim S5x4000000x4 (![0, 1, 2] : Fin 3 → Fin S5x4000000x4.rank)
  bcast_S1x1x4_S5x4000000x4_0_1_2 : S1x1x4.BroadcastsInDim S5x4000000x4 (![0, 1, 2] : Fin 3 → Fin S5x4000000x4.rank)
  reducesTo_S5x4000000x4_S5x4000000_d2 : S5x4000000x4.ReducesTo [2] S5x4000000
  bcast_S_S5x4000000 : S_.BroadcastsInDim S5x4000000 (![] : Fin 0 → Fin S5x4000000.rank)
  reducesTo_S5x4000000_S5_d1 : S5x4000000.ReducesTo [1] S5
  bcast_S_S5 : S_.BroadcastsInDim S5 (![] : Fin 0 → Fin S5.rank)
  gather_S5x20000x3_S4000000x1_S5x4000000x3_02_1_n_n_1_1_513_wf : GatherDims.WF S5x20000x3 S4000000x1 S5x4000000x3 [0, 2] [1] [] [1] [] 1 ![5, 1, 3]
  gather_S20000x3_S4000000x1_S4000000x3_1_0_n_n_0_1_13_wf : GatherDims.WF S20000x3 S4000000x1 S4000000x3 [1] [0] [] [0] [] 1 ![1, 3]

variable [Facts₀]

def gather_S5x20000x3_S4000000x1_S5x4000000x3_02_1_n_n_1_1_513 : GatherDims S5x20000x3 S4000000x1 S5x4000000x3 where
  offsetDims := [0, 2]
  collapsedSliceDims := [1]
  operandBatchingDims := []
  startIndicesBatchingDims := []
  startIndexMap := [1]
  indexVectorDim := 1
  sliceSizes := ![5, 1, 3]
  wf := gather_S5x20000x3_S4000000x1_S5x4000000x3_02_1_n_n_1_1_513_wf
def gather_S20000x3_S4000000x1_S4000000x3_1_0_n_n_0_1_13 : GatherDims S20000x3 S4000000x1 S4000000x3 where
  offsetDims := [1]
  collapsedSliceDims := [0]
  operandBatchingDims := []
  startIndicesBatchingDims := []
  startIndexMap := [0]
  indexVectorDim := 1
  sliceSizes := ![1, 3]
  wf := gather_S20000x3_S4000000x1_S4000000x3_1_0_n_n_0_1_13_wf

class Facts : Prop extends Facts₀ where

variable [Facts]
-- ==== Proof.Spec.lean ====
/-
  The mathematics of the pairwise distance score, on the extended reals, with no program in sight.

  An index word selects an atom of a table of 20000: a negative word counts from the end, and the result is
  read signed and clamped into the table. For a sample `s` and a pair `p` of index words the two programs
  form the distance between the two selected atoms in the predicted coordinates and in the true coordinates,
  each a square root of a sum of three squares started from the zero word, and the absolute value `e` of the
  difference of the two distances. The pair's score counts how many of the four thresholds 1/2, 1, 2, 4 lie
  strictly above `e` and takes a quarter of the count; a sample's result is the mean of the scores over the
  4000000 pairs.

  The two programs differ in three places only. One adds the four indicators left to right and multiplies by
  the word 1/4, the other sums them over `Fin 4` from the zero word and divides by the word 4 (`scoreK`,
  `scoreR`, equal by `scoreK_eq_scoreR`). One adds up the pairs in 125 consecutive blocks of 32000, each block's
  sum started from the zero word and added to a running total that itself starts from the zero word, and at the
  end multiplies by the rational 1/4000000; the other sums all pairs at once from the zero word and divides by
  the word 4000000 (`totalK`, `totalR`, equal by `totalK_eq_totalR`). Both laws are regroupings of a sum in
  the commutative monoid of the extended reals, together with `x / c = x · (1/c)` for a nonzero real `c`,
  which holds at every extended real: no finiteness is used.
-/
import Idealize.ShloMosaic.PureOps.Ideal
import Idealize.ShloMosaic.PureOps.Ideal.Laws
import Idealize.ShloMosaic.Lib.ValueIdx

noncomputable section

namespace Cert.Lddt

open Idealize.ShloMosaic Idealize.ShloMosaic.ValueIdx
open scoped BigOperators

/-! ## Words -/

/-- The f32 zero word, from which both programs start every sum. -/
abbrev z32 : EReal := Ideal.ofBits .f32 0x00000000#32

/-- An index word wrapped as array indexing wraps it: a negative index counts from the end of the 20000 atoms. -/
def wrapWord (w : BitVec 32) : BitVec 32 :=
  Scalar.select (IntOp.cmpi .slt w 0#32) (IntOp.addi w 20000#32) w

/-- The atom an index word selects: the wrapped word read signed and clamped into the table. -/
def atom (w : BitVec 32) : Fin 20000 := ⟨min (wrapWord w).toInt.toNat 19999, by omega⟩

/-! ## One pair -/

/-- The squared distance of two points of space as both programs sum it: the zero word plus the three squares. -/
def sqDist (a b : Fin 3 → EReal) : EReal := z32 + ∑ c : Fin 3, (a c - b c) * (a c - b c)

/-- The absolute difference of the predicted distance `‖a − b‖` and the true distance `‖a' − b'‖`. -/
def absErr (a b a' b' : Fin 3 → EReal) : EReal :=
  max (Ideal.sqrt (sqDist a b) - Ideal.sqrt (sqDist a' b')) (-(Ideal.sqrt (sqDist a b) - Ideal.sqrt (sqDist a' b')))

/-- `1` when `e` is strictly below the threshold word's value, else `0`. -/
def ind (e : EReal) (w : BitVec 32) : EReal := (((Ideal.cmp .olt e (Ideal.ofBits .f32 w)).toNat : ℝ) : EReal)

/-- The four threshold words 1/2, 1, 2, 4. -/
def thr : Fin 4 → BitVec 32 := ![0x3F000000#32, 0x3F800000#32, 0x40000000#32, 0x40800000#32]

/-- The score as a chain of three additions times the word 1/4. -/
def scoreK (e : EReal) : EReal :=
  (((ind e 0x3F000000#32 + ind e 0x3F800000#32) + ind e 0x40000000#32) + ind e 0x40800000#32)
    * Ideal.ofBits .f32 0x3E800000#32

/-- The score as a sum over the four thresholds from the zero word, divided by the word 4. -/
def scoreR (e : EReal) : EReal :=
  Ideal.div (z32 + ∑ k : Fin 4, ind e (thr k)) (Ideal.ofBits .f32 0x40800000#32)

/-! ## The arrays -/

/-- The absolute distance error of pair `p` in sample `s`: the predicted coordinates `A0 : [5, 20000, 3]`, the true
    coordinates `A1 : [20000, 3]`, the two index arrays `I2 I3 : [4000000]`. -/
def pairErr (A0 : (⟨3, ![5, 20000, 3]⟩ : Shape).Idx → EReal) (A1 : (⟨2, ![20000, 3]⟩ : Shape).Idx → EReal)
    (I2 I3 : IVec ⟨1, ![4000000]⟩ 32) (s : Fin 5) (p : Fin 4000000) : EReal :=
  absErr (fun c => A0 (ix3 s (atom (I2 (ix1 p))) c)) (fun c => A0 (ix3 s (atom (I3 (ix1 p))) c))
    (fun c => A1 (ix2 (atom (I2 (ix1 p))) c)) (fun c => A1 (ix2 (atom (I3 (ix1 p))) c))

/-! ## The mean over the pairs, two ways -/

/-- Block `t` of 32000 consecutive pairs summed from the zero word. -/
def blockSum (f : Fin 4000000 → EReal) (t : ℕ) (ht : t < 125) : EReal :=
  z32 + ∑ q : Fin 32000, f ⟨32000 * t + q.val, by have := q.isLt; omega⟩

/-- The running total after block `n`: it starts from the zero word and adds the blocks in order. -/
def accK (f : Fin 4000000 → EReal) : (n : ℕ) → n < 125 → EReal
  | 0, h => z32 + blockSum f 0 h
  | n + 1, h => accK f n (Nat.lt_of_succ_lt h) + blockSum f (n + 1) h

/-- The mean as the blockwise total times the rational 1/4000000. -/
def totalK (f : Fin 4000000 → EReal) : EReal := accK f 124 (by omega) * ((1 / 4000000 : ℝ) : EReal)

/-- The mean as the sum over all pairs from the zero word, divided by the word 4000000. -/
def totalR (f : Fin 4000000 → EReal) : EReal :=
  Ideal.div (z32 + ∑ p : Fin 4000000, f p) (Ideal.ofBits .f32 0x4A742400#32)

/-! ## The words' values -/

theorem ofBits_quarter : Ideal.ofBits .f32 0x3E800000#32 = ((1 / 4 : ℝ) : EReal) := by
  simp [Ideal.ofBits, Ideal.ieee, -EReal.coe_mul]; norm_num

theorem ofBits_four : Ideal.ofBits .f32 0x40800000#32 = ((4 : ℝ) : EReal) := by
  simp [Ideal.ofBits, Ideal.ieee, -EReal.coe_mul]; norm_num

theorem ofBits_4e6 : Ideal.ofBits .f32 0x4A742400#32 = ((4000000 : ℝ) : EReal) := by
  simp [Ideal.ofBits, Ideal.ieee, -EReal.coe_mul]; norm_num

/-! ## The two laws -/

/-- Three additions left to right times 1/4 is the sum over `Fin 4` from zero divided by 4. -/
theorem scoreK_eq_scoreR (e : EReal) : scoreK e = scoreR e := by
  unfold scoreK scoreR
  rw [ofBits_quarter, ofBits_four, Ideal.div_coe (by norm_num : (4 : ℝ) ≠ 0), Fin.sum_univ_four]
  show _ = (z32 + (ind e (thr 0) + ind e (thr 1) + ind e (thr 2) + ind e (thr 3))) * _
  rw [show z32 = 0 from Ideal.ofBits_zero_f32, zero_add]
  rfl

/-- The running total after block `n` is the sum of the blocks `0 … n`. -/
theorem accK_eq_sum (f : Fin 4000000 → EReal) : ∀ (n : ℕ) (h : n < 125),
    accK f n h = ∑ t : Fin (n + 1), ∑ q : Fin 32000, f ⟨32000 * t.val + q.val, by have := q.isLt; have := t.isLt; omega⟩
  | 0, h => by
    unfold accK blockSum
    rw [show z32 = 0 from Ideal.ofBits_zero_f32, zero_add, zero_add, Fin.sum_univ_one]
    rfl
  | n + 1, h => by
    unfold accK
    rw [accK_eq_sum f n (Nat.lt_of_succ_lt h), Fin.sum_univ_castSucc (n := n + 1)]
    unfold blockSum
    rw [show z32 = 0 from Ideal.ofBits_zero_f32, zero_add]
    rfl

/-- The pairs in 125 consecutive blocks of 32000 are all the pairs. -/
theorem sum_blocks (f : Fin 4000000 → EReal) :
    (∑ t : Fin 125, ∑ q : Fin 32000, f ⟨32000 * t.val + q.val, by have := q.isLt; have := t.isLt; omega⟩)
      = ∑ p : Fin 4000000, f p := by
  rw [← Finset.sum_product']
  refine Finset.sum_bij' (fun tq _ => (⟨32000 * tq.1.val + tq.2.val, by have := tq.2.isLt; have := tq.1.isLt; omega⟩ : Fin 4000000))
    (fun p _ => ((⟨p.val / 32000, by have := p.isLt; omega⟩ : Fin 125), (⟨p.val % 32000, Nat.mod_lt _ (by norm_num)⟩ : Fin 32000)))
    (fun _ _ => Finset.mem_univ _) (fun _ _ => Finset.mem_univ _) ?_ ?_ (fun _ _ => rfl)
  · rintro ⟨t, q⟩ _
    have := q.isLt
    refine Prod.ext (Fin.ext ?_) (Fin.ext ?_)
    · show (32000 * t.val + q.val) / 32000 = t.val; omega
    · show (32000 * t.val + q.val) % 32000 = q.val; omega
  · intro p _
    refine Fin.ext ?_
    show 32000 * (p.val / 32000) + p.val % 32000 = p.val
    omega

/-- The blockwise total times 1/4000000 is the whole sum divided by 4000000. -/
theorem totalK_eq_totalR (f : Fin 4000000 → EReal) : totalK f = totalR f := by
  unfold totalK totalR
  rw [accK_eq_sum f 124 (by omega), sum_blocks f, ofBits_4e6, Ideal.div_coe (by norm_num : (4000000 : ℝ) ≠ 0),
    show z32 = 0 from Ideal.ofBits_zero_f32, zero_add]

end Cert.Lddt

end
-- ==== Proof.KCases.lean ====
import proofs.«147747_j84817014161962_2_alg».proof.Proof.Gen.KernelIdeal.Frame
import Idealize.ShloMosaic.Lib.Pipeline.Value
import Idealize.ShloMosaic.Lib.Tactic

set_option maxRecDepth 16384

/-
  What one grid point leaves in the accumulator block, case by case, as a pure function of the point's four input
  blocks and of what the block held before.

  The body's last store covers the whole [5, 1] block. At the first point it stores the block of zeros and then adds the
  point's partial sums to what it reads back (`out_first`); at a middle point it adds the partial sums to what the
  point before left (`out_middle`); at the last point it does the same and then stores the scaled total over it
  (`out_last`). The partial sums are the body's own arithmetic (`k0_pay1` over `k0_pay5`, `k0_pay6`), the scaling is
  `k0_pay2`; nothing of the arithmetic is opened here, and the statements hold at any float instance.
-/
noncomputable section

open Idealize.ShloMosaic Idealize.ShloMosaic.TcCoe Idealize.SL.Sem
open Idealize.ShloMosaic.Pipeline (Dat)

namespace Cert.KernelIdeal.KValue
open Cert.KernelIdeal Cert.KernelIdeal.Gen
variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- One point's update of the accumulator block `acc` from the point's input blocks: `acc` plus the partial sums. -/
def step (x0 x1 : Vec F S5x3x32000 .f32) (x2 x3 : Vec F S3x32000 .f32) (acc : Vec F S5x1 .f32) : Vec F S5x1 .f32 :=
  k0_pay1 (k0_pay5 x0 x1 x2 x3) (k0_pay6 x0 x1 x2 x3) acc

/-- A MIDDLE point: the one covering store's payload, its loads reading the whole buffers. -/
theorem out_middle (c : Dev nD) (i : grid0.Coords) (a1 : Memref sig .tc .vmem S5x3x32000 .f32) (h1 : a1.IsWhole)
    (a2 : Memref sig .tc .vmem S5x3x32000 .f32) (h2 : a2.IsWhole) (a3 : Memref sig .tc .vmem S3x32000 .f32) (h3 : a3.IsWhole)
    (a4 : Memref sig .tc .vmem S3x32000 .f32) (h4 : a4.IsWhole) (a5 : Memref sig .tc .vmem S5x1 .f32) (h5 : a5.IsWhole)
    (hc0 : ¬cond0_0 i) (hc1 : ¬cond0_1 i)
    (x0 x1 : Vec F S5x3x32000 .f32) (x2 x3 : Vec F S3x32000 .f32) (xo : Vec F S5x1 .f32) :
    out0_B_4 c i a1 h1 a2 h2 a3 h3 a4 h4 a5 h5 hc0 hc1 x0 x1 x2 x3 xo = step x0 x1 x2 x3 xo := by
  unfold out0_B_4
  rw [View.read_writes_eq_canon _ _ _ (cover0_B_4 c i a1 h1 a2 h2 a3 h3 a4 h4 a5 h5 hc0 hc1 x0 x1 x2 x3 xo)]
  unfold kernelRun0_B
  dsimp only
  sl_unfold_words
  rw [View.canon_unit_zero hz2]
  unfold step
  simp only [View.readAt_eq_ld, h1.read_unread, h2.read_unread, h3.read_unread, h4.read_unread, h5.read_unread,
    View.ld_unit_zero (S := S5x1) hz2, View.ld_unit_zero (S := S5x3x32000) hz3, View.ld_unit_zero (S := S3x32000) hz2]

/-- The FIRST point: the zero block is stored, read back, and the partial sums are added to it. -/
theorem out_first (c : Dev nD) (i : grid0.Coords) (a1 : Memref sig .tc .vmem S5x3x32000 .f32) (h1 : a1.IsWhole)
    (a2 : Memref sig .tc .vmem S5x3x32000 .f32) (h2 : a2.IsWhole) (a3 : Memref sig .tc .vmem S3x32000 .f32) (h3 : a3.IsWhole)
    (a4 : Memref sig .tc .vmem S3x32000 .f32) (h4 : a4.IsWhole) (a5 : Memref sig .tc .vmem S5x1 .f32) (h5 : a5.IsWhole)
    (hc0 : cond0_0 i) (hc1 : ¬cond0_1 i)
    (x0 x1 : Vec F S5x3x32000 .f32) (x2 x3 : Vec F S3x32000 .f32) :
    out0_A_4 c i a1 h1 a2 h2 a3 h3 a4 h4 a5 h5 hc0 hc1 x0 x1 x2 x3 = step x0 x1 x2 x3 (k0_pay3 (F := F)) := by
  unfold out0_A_4
  rw [View.read_writes_eq_canon _ _ _ (cover0_A_4 c i a1 h1 a2 h2 a3 h3 a4 h4 a5 h5 hc0 hc1 x0 x1 x2 x3)]
  unfold kernelRun0_A
  dsimp only
  sl_unfold_words
  rw [View.canon_cons_unit_zero (S := S5x1) hz2, View.readCov_unit_zero (S := S5x1) _ hz2]
  unfold step
  simp only [View.readAt_eq_ld, h1.read_unread, h2.read_unread, h3.read_unread, h4.read_unread,
    View.ld_unit_zero (S := S5x1) hz2, View.ld_unit_zero (S := S5x3x32000) hz3, View.ld_unit_zero (S := S3x32000) hz2]

/-- The LAST point: the accumulated block is stored, read back, scaled, and stored over itself. -/
theorem out_last (c : Dev nD) (i : grid0.Coords) (a1 : Memref sig .tc .vmem S5x3x32000 .f32) (h1 : a1.IsWhole)
    (a2 : Memref sig .tc .vmem S5x3x32000 .f32) (h2 : a2.IsWhole) (a3 : Memref sig .tc .vmem S3x32000 .f32) (h3 : a3.IsWhole)
    (a4 : Memref sig .tc .vmem S3x32000 .f32) (h4 : a4.IsWhole) (a5 : Memref sig .tc .vmem S5x1 .f32) (h5 : a5.IsWhole)
    (hc0 : ¬cond0_0 i) (hc1 : cond0_1 i)
    (x0 x1 : Vec F S5x3x32000 .f32) (x2 x3 : Vec F S3x32000 .f32) (xo : Vec F S5x1 .f32) :
    out0_C_4 c i a1 h1 a2 h2 a3 h3 a4 h4 a5 h5 hc0 hc1 x0 x1 x2 x3 xo = k0_pay2 (step x0 x1 x2 x3 xo) := by
  unfold out0_C_4
  rw [View.read_writes_eq_canon _ _ _ (cover0_C_4 c i a1 h1 a2 h2 a3 h3 a4 h4 a5 h5 hc0 hc1 x0 x1 x2 x3 xo)]
  unfold kernelRun0_C
  dsimp only
  sl_unfold_words
  rw [View.canon_cons_unit_zero (S := S5x1) hz2, View.readCov_unit_zero (S := S5x1) _ hz2]
  unfold step
  simp only [View.readAt_eq_ld, h1.read_unread, h2.read_unread, h3.read_unread, h4.read_unread, h5.read_unread,
    View.ld_unit_zero (S := S5x1) hz2, View.ld_unit_zero (S := S5x3x32000) hz3, View.ld_unit_zero (S := S3x32000) hz2]

end Cert.KernelIdeal.KValue
end
-- ==== Proof.KPayload.lean ====
import proofs.«147747_j84817014161962_2_alg».proof.Proof.Gen.KernelIdeal.Skeleton
import proofs.«147747_j84817014161962_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import Idealize.ShloMosaic.Lib.KernelVsHost

set_option maxRecDepth 16384

/-
  The kernel body's arithmetic read at an index, on the extended reals.

  A grid point holds 32000 consecutive pairs. Its four input blocks are the gathered coordinates laid out with the
  space axis before the pair axis: `x0 x1 : [5, 3, 32000]` the two endpoints in the predicted coordinates, `x2 x3 :
  [3, 32000]` the two endpoints in the true coordinates. At sample `s` and lane `q` the body forms the absolute distance
  error of the pair from the three coordinates `c` of each endpoint (`err_apply`: the sums over `c` are lane-wise
  reductions over the space axis, the true distance is one row laid along every sample), counts the thresholds above it
  (an indicator is a one-bit compare widened to a word and converted signed: `0` or `1`, the same real as the bit read
  unsigned), takes a quarter, and sums the block's 32000 scores into column `s` of the [5, 1] accumulator
  (`step_apply`). The last point multiplies the accumulator by the named rational 1/4000000 (`scale_apply`).
-/
noncomputable section

open Idealize.ShloMosaic Idealize.ShloMosaic.TcCoe Idealize.SL.Sem
open Idealize.ShloMosaic.Pipeline (Dat)

namespace Cert.KernelIdeal.KValue
open Cert.KernelIdeal Cert.KernelIdeal.Gen Idealize.ShloMosaic.ValueIdx Cert.Lddt
open scoped BigOperators

/-! ## Layout and reductions at explicit coordinates -/

/-- A sum of a [5, 3, n] array over its middle axis, at (s, q). -/
theorem sumMid_apply (v : FVec Ideal S5x3x32000 .f32) (h : S5x3x32000.Reduces [1] S5x32000) (hφ : FKind.Formats .f32)
    (hacc : (0x00000000#32 : BitVec 32) = 0x00000000#32) (s : Fin 5) (q : Fin 32000) :
    multiReduction .add [1] S5x32000 v 0x00000000#32 h hφ hacc (ix2 s q) = ∑ c : Fin 3, v (ix3 s c q) := by
  refine (Ideal.multiReduction_add_single v 0x00000000#32 h hφ hacc (ix2 s q)).trans ?_
  refine Finset.sum_congr rfl fun c _ => congrArg v ?_
  funext a; apply Fin.ext
  match a with
  | ⟨0, _⟩ => rfl
  | ⟨1, _⟩ => rfl
  | ⟨2, _⟩ => rfl

/-- A sum of a [3, n] array over its first axis, at q. -/
theorem sumTop_apply (v : FVec Ideal S3x32000 .f32) (h : S3x32000.Reduces [0] S32000) (hφ : FKind.Formats .f32)
    (hacc : (0x00000000#32 : BitVec 32) = 0x00000000#32) (q : Fin 32000) :
    multiReduction .add [0] S32000 v 0x00000000#32 h hφ hacc (ix1 q) = ∑ c : Fin 3, v (ix2 c q) := by
  refine (Ideal.multiReduction_add_single v 0x00000000#32 h hφ hacc (ix1 q)).trans ?_
  refine Finset.sum_congr rfl fun c _ => congrArg v ?_
  funext a; apply Fin.ext
  match a with
  | ⟨0, _⟩ => rfl
  | ⟨1, _⟩ => rfl

/-- A sum of a [5, n] array over its lanes, at s. -/
theorem sumLane_apply (v : FVec Ideal S5x32000 .f32) (h : S5x32000.Reduces [1] S5) (hφ : FKind.Formats .f32)
    (hacc : (0x00000000#32 : BitVec 32) = 0x00000000#32) (s : Fin 5) :
    multiReduction .add [1] S5 v 0x00000000#32 h hφ hacc (ix1 s) = ∑ q : Fin 32000, v (ix2 s q) := by
  refine (Ideal.multiReduction_add_single v 0x00000000#32 h hφ hacc (ix1 s)).trans ?_
  refine Finset.sum_congr rfl fun q _ => congrArg v ?_
  funext a; apply Fin.ext
  match a with
  | ⟨0, _⟩ => rfl
  | ⟨1, _⟩ => rfl

/-- A [5] array cast to a [5, 1] column reads, at (s, 0), the operand at s. -/
theorem colCast_apply {α : Type} (x : S5.Idx → α) (h : S5.ShapeCasts S5x1) (s : Fin 5) (u : Fin 1) :
    shapeCast S5x1 x h (ix2 s u) = x (ix1 s) :=
  shapeCast_apply x h _ _ (by
    have hu : u.val = 0 := by omega
    rw [Shape.rowMajor_val_two, Shape.rowMajor_val_one]
    show s.val = s.val * 1 + u.val
    rw [hu, Nat.mul_one, Nat.add_zero])

/-! ## Pointwise operations at an index (each by definition) -/

theorem sqrt_at {s : Shape} (v : FVec Ideal s .f32) (i : s.Idx) : sqrt v i = Ideal.sqrt (v i) := rfl
theorem absf_at {s : Shape} (v : FVec Ideal s .f32) (i : s.Idx) : absf v i = max (v i) (-(v i)) := rfl
theorem sq_at {s : Shape} (a b : FVec Ideal s .f32) (i : s.Idx) :
    mulf (subf a b) (subf a b) i = (a i - b i) * (a i - b i) := rfl

/-! ## The indicator -/

/-- A one-bit compare widened to a word and converted signed is the bit read as a number. -/
theorem indK (e : EReal) (w : BitVec 32) :
    (FloatOps.sitofp (F := Ideal) .f32 ((FloatOps.cmpf (F := Ideal) (φ := .f32) .olt e (Scalar.ofBits .f32 w)).setWidth 32) : EReal)
      = ind e w := by
  show (((((Ideal.cmp .olt e (Ideal.ofBits .f32 w)).setWidth 32).toInt : ℝ)) : EReal) = _
  rw [toInt_setWidth_bit, Int.cast_natCast]
  rfl

/-! ## The absolute distance error of a lane -/

/-- The predicted distance of every (sample, lane) of the block. -/
def predD (x0 x1 : Vec Ideal S5x3x32000 .f32) : FVec Ideal S5x32000 .f32 :=
  sqrt (multiReduction .add [1] S5x32000
    (mulf (subf (shapeCast S5x3x32000 x0 shapeCasts_S5x3x32000_S5x3x32000) (shapeCast S5x3x32000 x1 shapeCasts_S5x3x32000_S5x3x32000))
      (subf (shapeCast S5x3x32000 x0 shapeCasts_S5x3x32000_S5x3x32000) (shapeCast S5x3x32000 x1 shapeCasts_S5x3x32000_S5x3x32000)))
    0x00000000#32 reduces_S5x3x32000_S5x32000 (.inl rfl) rfl)

/-- The true distance of every lane, laid along every sample. -/
def trueD (x2 x3 : Vec Ideal S3x32000 .f32) : FVec Ideal S5x32000 .f32 :=
  broadcastTo S5x32000 (sqrt (shapeCast S1x32000 (multiReduction .add [0] S32000
    (mulf (subf (shapeCast S3x32000 x2 shapeCasts_S3x32000_S3x32000) (shapeCast S3x32000 x3 shapeCasts_S3x32000_S3x32000))
      (subf (shapeCast S3x32000 x2 shapeCasts_S3x32000_S3x32000) (shapeCast S3x32000 x3 shapeCasts_S3x32000_S3x32000)))
    0x00000000#32 reduces_S3x32000_S32000 (.inl rfl) rfl) shapeCasts_S32000_S1x32000)) broadcasts_S1x32000_S5x32000

theorem pay4_eq (x0 x1 : Vec Ideal S5x3x32000 .f32) (x2 x3 : Vec Ideal S3x32000 .f32) :
    k0_pay4 (F := Ideal) x0 x1 x2 x3 = absf (subf (predD x0 x1) (trueD x2 x3)) := rfl

theorem predD_apply (x0 x1 : Vec Ideal S5x3x32000 .f32) (s : Fin 5) (q : Fin 32000) :
    predD x0 x1 (ix2 s q) = Ideal.sqrt (sqDist (fun c => x0 (ix3 s c q)) (fun c => x1 (ix3 s c q))) := by
  unfold predD sqDist
  refine (sqrt_at _ _).trans (congrArg Ideal.sqrt ?_)
  refine (sumMid_apply _ _ _ _ s q).trans ?_
  rw [show z32 = 0 from Ideal.ofBits_zero_f32, zero_add, shapeCast_self, shapeCast_self]
  exact Finset.sum_congr rfl fun c _ => sq_at _ _ _

theorem trueD_apply (x2 x3 : Vec Ideal S3x32000 .f32) (s : Fin 5) (q : Fin 32000) :
    trueD x2 x3 (ix2 s q) = Ideal.sqrt (sqDist (fun c => x2 (ix2 c q)) (fun c => x3 (ix2 c q))) := by
  unfold trueD sqDist
  refine (broadcastTo_1b_ab_apply _ _ s q).trans ?_
  refine (sqrt_at _ _).trans (congrArg Ideal.sqrt ?_)
  refine (shapeCast_a_1a_apply _ _ (0 : Fin 1) q).trans ?_
  refine (sumTop_apply _ _ _ _ q).trans ?_
  rw [show z32 = 0 from Ideal.ofBits_zero_f32, zero_add, shapeCast_self, shapeCast_self]
  exact Finset.sum_congr rfl fun c _ => sq_at _ _ _

/-- The body's absolute distance error at (s, q). -/
theorem err_apply (x0 x1 : Vec Ideal S5x3x32000 .f32) (x2 x3 : Vec Ideal S3x32000 .f32) (s : Fin 5) (q : Fin 32000) :
    k0_pay4 (F := Ideal) x0 x1 x2 x3 (ix2 s q)
      = absErr (fun c => x0 (ix3 s c q)) (fun c => x1 (ix3 s c q)) (fun c => x2 (ix2 c q)) (fun c => x3 (ix2 c q)) := by
  rw [pay4_eq]
  refine (absf_at _ _).trans ?_
  rw [subf_apply, predD_apply, trueD_apply]
  rfl

/-! ## The score of a lane and the block's sums -/

/-- The first three indicators added left to right. -/
theorem pay5_apply (x0 x1 : Vec Ideal S5x3x32000 .f32) (x2 x3 : Vec Ideal S3x32000 .f32) (j : S5x32000.Idx) :
    k0_pay5 (F := Ideal) x0 x1 x2 x3 j
      = (ind (k0_pay4 (F := Ideal) x0 x1 x2 x3 j) 0x3F000000#32 + ind (k0_pay4 (F := Ideal) x0 x1 x2 x3 j) 0x3F800000#32)
        + ind (k0_pay4 (F := Ideal) x0 x1 x2 x3 j) 0x40000000#32 := by
  rw [← indK, ← indK, ← indK]
  rfl

/-- The scores of the block: a quarter of the four indicators' sum. -/
theorem score_apply (x0 x1 : Vec Ideal S5x3x32000 .f32) (x2 x3 : Vec Ideal S3x32000 .f32) (j : S5x32000.Idx) :
    mulf (addf (k0_pay5 (F := Ideal) x0 x1 x2 x3) (sitofp .f32 (k0_pay6 (F := Ideal) x0 x1 x2 x3)))
        (broadcast S5x32000 (Scalar.ofBits (F := Ideal) .f32 0x3E800000#32)) j
      = scoreK (k0_pay4 (F := Ideal) x0 x1 x2 x3 j) := by
  unfold scoreK
  rw [← indK (k0_pay4 (F := Ideal) x0 x1 x2 x3 j) 0x40800000#32, ← pay5_apply]
  rfl

/-- ONE POINT: column `s` of the accumulator gains the sum of the block's 32000 scores of sample `s`. -/
theorem step_apply (x0 x1 : Vec Ideal S5x3x32000 .f32) (x2 x3 : Vec Ideal S3x32000 .f32) (acc : Vec Ideal S5x1 .f32) (s : Fin 5) :
    k0_pay1 (F := Ideal) (k0_pay5 x0 x1 x2 x3) (k0_pay6 x0 x1 x2 x3) acc (ix2 s (0 : Fin 1))
      = acc (ix2 s (0 : Fin 1)) + (z32 + ∑ q : Fin 32000,
          scoreK (absErr (fun c => x0 (ix3 s c q)) (fun c => x1 (ix3 s c q)) (fun c => x2 (ix2 c q)) (fun c => x3 (ix2 c q)))) := by
  unfold k0_pay1
  show shapeCast S5x1 acc shapeCasts_S5x1_S5x1 (ix2 s (0 : Fin 1))
      + shapeCast S5x1 (multiReduction .add [1] S5
          (mulf (addf (k0_pay5 (F := Ideal) x0 x1 x2 x3) (sitofp .f32 (k0_pay6 (F := Ideal) x0 x1 x2 x3)))
            (broadcast S5x32000 (Scalar.ofBits (F := Ideal) .f32 0x3E800000#32)))
          0x00000000#32 reduces_S5x32000_S5 (.inl rfl) rfl) shapeCasts_S5_S5x1 (ix2 s (0 : Fin 1)) = _
  rw [shapeCast_self, colCast_apply, sumLane_apply, show z32 = 0 from Ideal.ofBits_zero_f32, zero_add]
  refine congrArg (acc (ix2 s (0 : Fin 1)) + ·) (Finset.sum_congr rfl fun q _ => ?_)
  rw [score_apply, err_apply]

/-- The block of zeros the first point stores. -/
theorem zero_apply (j : S5x1.Idx) : k0_pay3 (F := Ideal) j = z32 := rfl

/-- The named reciprocal denotes the rational 1/4000000. -/
theorem inv_pairs : Named.named (F := Ideal) Cert.KernelIdeal.κ "inv_4000000" (φ := .f32) 0x348637BD#32 = ((1 / 4000000 : ℝ) : EReal) :=
  IdealRules.named_const.ideal_named_scalar _ _ _ _ rfl

/-- THE LAST POINT's scaling, at an index. -/
theorem scale_apply (v : Vec Ideal S5x1 .f32) (j : S5x1.Idx) :
    k0_pay2 (F := Ideal) v j = v j * ((1 / 4000000 : ℝ) : EReal) := by
  unfold k0_pay2
  show shapeCast S5x1 v shapeCasts_S5x1_S5x1 j * Named.named (F := Ideal) Cert.KernelIdeal.κ "inv_4000000" (φ := .f32) 0x348637BD#32 = _
  rw [shapeCast_self, inv_pairs]

end Cert.KernelIdeal.KValue
end
-- ==== Proof.KBlocks.lean ====
import proofs.«147747_j84817014161962_2_alg».proof.Proof.Gen.KernelIdeal.Frame
import Idealize.ShloMosaic.Lib.Pipeline.Value
import Idealize.ShloMosaic.Lib.StableHlo.Run
import Idealize.ShloMosaic.Lib.ValueIdx

set_option maxRecDepth 16384

/-
  What the kernel's four input windows hold.

  Before the region the host lines transpose the two coordinate tables so that the space axis comes before the atom
  axis, wrap the two index arrays (a negative index counts from the end) into columns, and gather along the atom axis:
  the predicted endpoints as two [5, 3, 4000000] arrays, the true endpoints as two [3, 4000000] arrays (`V_l_pred`,
  `V_m_pred`, `V_l_true`, `V_m_true`: each array read off the host lines). A window's block at grid point `t` is the
  32000 consecutive pairs from `32000 · t`: entry `(s, c, q)` of the block is entry `(s, c, 32000 · t + q)` of the array
  (`blkP_apply`, `blkT_apply`), the block's index on the pair axis being `t` and on the others `0` (`idx_facts`,
  decided once over the 125 points).
-/
noncomputable section

open Idealize.ShloMosaic Idealize.ShloMosaic.TcCoe Idealize.SL.Sem
open Idealize.ShloMosaic.Pipeline (Dat)

namespace Cert.KernelIdeal.KValue
open Cert.KernelIdeal Cert.KernelIdeal.Gen Idealize.ShloMosaic.ValueIdx Idealize.ShloMosaic.StableHlo

variable {F : FTy → Type} [FloatOps F] [Named F]

/-- An index array wrapped (a negative index counts from the end of the 20000 atoms) and made a column. -/
def wrapColK (I : (⟨S4000000, .i32⟩ : BufTy).Contents (Elt F)) : (⟨S4000000x1, .i32⟩ : BufTy).Contents (Elt F) :=
  (broadcastInDim S4000000x1 ![0] bcast_S4000000_S4000000x1_0 : (⟨S4000000, .i32⟩ : BufTy).Contents (Elt F) → (⟨S4000000x1, .i32⟩ : BufTy).Contents (Elt F))
    ((select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F))
      ((cmpi .slt : (⟨S4000000, .i32⟩ : BufTy).Contents (Elt F) → (⟨S4000000, .i32⟩ : BufTy).Contents (Elt F) → (⟨S4000000, .i1⟩ : BufTy).Contents (Elt F)) I
        ((broadcastInDim S4000000 ![] bcast_S_S4000000 : (⟨S_, .i32⟩ : BufTy).Contents (Elt F) → (⟨S4000000, .i32⟩ : BufTy).Contents (Elt F)) (constantI S_ 32 0#32)))
      ((addi : (⟨S4000000, .i32⟩ : BufTy).Contents (Elt F) → (⟨S4000000, .i32⟩ : BufTy).Contents (Elt F) → (⟨S4000000, .i32⟩ : BufTy).Contents (Elt F)) I
        ((broadcastInDim S4000000 ![] bcast_S_S4000000 : (⟨S_, .i32⟩ : BufTy).Contents (Elt F) → (⟨S4000000, .i32⟩ : BufTy).Contents (Elt F)) (constantI S_ 32 20000#32)))
      I)

/-- The predicted coordinates of the atoms an index array selects, space axis before pair axis. -/
def gatheredP (A0 : (⟨S5x20000x3, .f32⟩ : BufTy).Contents (Elt F)) (I : (⟨S4000000, .i32⟩ : BufTy).Contents (Elt F)) :
    (⟨S5x3x4000000, .f32⟩ : BufTy).Contents (Elt F) :=
  Host.gather gather_S5x3x20000_S4000000x1_S5x3x4000000_01_2_n_n_2_1_531
    ((transpose S5x3x20000 [0, 2, 1] · transposes_S5x20000x3_S5x3x20000_0_2_1 : (⟨S5x20000x3, .f32⟩ : BufTy).Contents (Elt F) → (⟨S5x3x20000, .f32⟩ : BufTy).Contents (Elt F)) A0)
    (wrapColK I)

/-- The true coordinates of the atoms an index array selects, space axis before pair axis. -/
def gatheredT (A1 : (⟨S20000x3, .f32⟩ : BufTy).Contents (Elt F)) (I : (⟨S4000000, .i32⟩ : BufTy).Contents (Elt F)) :
    (⟨S3x4000000, .f32⟩ : BufTy).Contents (Elt F) :=
  Host.gather gather_S3x20000_S4000000x1_S3x4000000_0_1_n_n_1_1_31
    ((transpose S3x20000 [1, 0] · transposes_S20000x3_S3x20000_1_0 : (⟨S20000x3, .f32⟩ : BufTy).Contents (Elt F) → (⟨S3x20000, .f32⟩ : BufTy).Contents (Elt F)) A1)
    (wrapColK I)

variable (m : (ℓ : Loc nD τ sig) → Buf (Elt F) ℓ)

attribute [local irreducible] Host.gather transpose broadcastInDim in
theorem V_l_pred (c : Dev nD) : V m c main_v8
    = gatheredP (m ((c : Thread nD τ).loc main_arg0)) (m ((c : Thread nD τ).loc main_arg2)) := by
  show StableHlo.after hostOps0 (fun b => m (c, b)) (Proc.devRef .tc main_v8) = _
  after_results_simp
  rfl

attribute [local irreducible] Host.gather transpose broadcastInDim in
theorem V_m_pred (c : Dev nD) : V m c main_v15
    = gatheredP (m ((c : Thread nD τ).loc main_arg0)) (m ((c : Thread nD τ).loc main_arg3)) := by
  show StableHlo.after hostOps0 (fun b => m (c, b)) (Proc.devRef .tc main_v15) = _
  after_results_simp
  rfl

attribute [local irreducible] Host.gather transpose broadcastInDim in
theorem V_l_true (c : Dev nD) : V m c main_v22
    = gatheredT (m ((c : Thread nD τ).loc main_arg1)) (m ((c : Thread nD τ).loc main_arg2)) := by
  show StableHlo.after hostOps0 (fun b => m (c, b)) (Proc.devRef .tc main_v22) = _
  after_results_simp
  rfl

attribute [local irreducible] Host.gather transpose broadcastInDim in
theorem V_m_true (c : Dev nD) : V m c main_v29
    = gatheredT (m ((c : Thread nD τ).loc main_arg1)) (m ((c : Thread nD τ).loc main_arg3)) := by
  show StableHlo.after hostOps0 (fun b => m (c, b)) (Proc.devRef .tc main_v29) = _
  after_results_simp
  rfl

/-! ## The blocks -/

/-- The pair that lane `q` of grid point `t` holds. -/
def pairOf (t : Fin cfg0.N) (q : Fin 32000) : Fin 4000000 :=
  ⟨32000 * t.val + q.val, by have := lt_of_lt_of_eq t.isLt (show cfg0.N = 125 from N_0); have := q.isLt; omega⟩

/-- Each input window's block index: `t` on the pair axis, `0` elsewhere. -/
theorem idx_facts : ∀ t : Fin cfg0.N,
    (win0_0.index t 0 = 0 ∧ win0_0.index t 1 = 0 ∧ win0_0.index t 2 = t.val)
    ∧ (win0_1.index t 0 = 0 ∧ win0_1.index t 1 = 0 ∧ win0_1.index t 2 = t.val)
    ∧ (win0_2.index t 0 = 0 ∧ win0_2.index t 1 = t.val)
    ∧ (win0_3.index t 0 = 0 ∧ win0_3.index t 1 = t.val) :=
  (by decide +kernel : ∀ t : Fin grid0.N,
    (win0_0.index t 0 = 0 ∧ win0_0.index t 1 = 0 ∧ win0_0.index t 2 = t.val)
    ∧ (win0_1.index t 0 = 0 ∧ win0_1.index t 1 = 0 ∧ win0_1.index t 2 = t.val)
    ∧ (win0_2.index t 0 = 0 ∧ win0_2.index t 1 = t.val)
    ∧ (win0_3.index t 0 = 0 ∧ win0_3.index t 1 = t.val))

theorem blk0_apply (c : Dev nD) (t : Fin cfg0.N) (s : Fin 5) (k : Fin 3) (q : Fin 32000) :
    (iblk m c 0 t : Vec F S5x3x32000 .f32) (ix3 s k q) = (V m c main_v8 : S5x3x4000000.Idx → Elt F .f32) (ix3 s k (pairOf t q)) := by
  have hi := (idx_facts t).1
  unfold iblk
  rw [View.read_apply]
  show V m c main_v8 _ = V m c main_v8 _
  refine congrArg (V m c main_v8) ?_
  funext a
  apply Fin.ext
  match a with
  | ⟨0, _⟩ => show win0_0.index t 0 * 5 + 1 * s.val = s.val; rw [hi.1]; omega
  | ⟨1, _⟩ => show win0_0.index t 1 * 3 + 1 * k.val = k.val; rw [hi.2.1]; omega
  | ⟨2, _⟩ => show win0_0.index t 2 * 32000 + 1 * q.val = 32000 * t.val + q.val; rw [hi.2.2]; omega

theorem blk1_apply (c : Dev nD) (t : Fin cfg0.N) (s : Fin 5) (k : Fin 3) (q : Fin 32000) :
    (iblk m c 1 t : Vec F S5x3x32000 .f32) (ix3 s k q) = (V m c main_v15 : S5x3x4000000.Idx → Elt F .f32) (ix3 s k (pairOf t q)) := by
  have hi := (idx_facts t).2.1
  unfold iblk
  rw [View.read_apply]
  show V m c main_v15 _ = V m c main_v15 _
  refine congrArg (V m c main_v15) ?_
  funext a
  apply Fin.ext
  match a with
  | ⟨0, _⟩ => show win0_1.index t 0 * 5 + 1 * s.val = s.val; rw [hi.1]; omega
  | ⟨1, _⟩ => show win0_1.index t 1 * 3 + 1 * k.val = k.val; rw [hi.2.1]; omega
  | ⟨2, _⟩ => show win0_1.index t 2 * 32000 + 1 * q.val = 32000 * t.val + q.val; rw [hi.2.2]; omega

theorem blk2_apply (c : Dev nD) (t : Fin cfg0.N) (k : Fin 3) (q : Fin 32000) :
    (iblk m c 2 t : Vec F S3x32000 .f32) (ix2 k q) = (V m c main_v22 : S3x4000000.Idx → Elt F .f32) (ix2 k (pairOf t q)) := by
  have hi := (idx_facts t).2.2.1
  unfold iblk
  rw [View.read_apply]
  show V m c main_v22 _ = V m c main_v22 _
  refine congrArg (V m c main_v22) ?_
  funext a
  apply Fin.ext
  match a with
  | ⟨0, _⟩ => show win0_2.index t 0 * 3 + 1 * k.val = k.val; rw [hi.1]; omega
  | ⟨1, _⟩ => show win0_2.index t 1 * 32000 + 1 * q.val = 32000 * t.val + q.val; rw [hi.2]; omega

theorem blk3_apply (c : Dev nD) (t : Fin cfg0.N) (k : Fin 3) (q : Fin 32000) :
    (iblk m c 3 t : Vec F S3x32000 .f32) (ix2 k q) = (V m c main_v29 : S3x4000000.Idx → Elt F .f32) (ix2 k (pairOf t q)) := by
  have hi := (idx_facts t).2.2.2
  unfold iblk
  rw [View.read_apply]
  show V m c main_v29 _ = V m c main_v29 _
  refine congrArg (V m c main_v29) ?_
  funext a
  apply Fin.ext
  match a with
  | ⟨0, _⟩ => show win0_3.index t 0 * 3 + 1 * k.val = k.val; rw [hi.1]; omega
  | ⟨1, _⟩ => show win0_3.index t 1 * 32000 + 1 * q.val = 32000 * t.val + q.val; rw [hi.2]; omega

end Cert.KernelIdeal.KValue
end
-- ==== Proof.KGather.lean ====
import proofs.«147747_j84817014161962_2_alg».proof.Proof.Gen.KernelIdeal
import proofs.«147747_j84817014161962_2_alg».proof.Proof.Spec
import Idealize.ShloMosaic.Lib.ValueIdx
import Idealize.ShloMosaic.Lib.ValueLayout
import Idealize.ShloMosaic.Lib.Pipeline.Value

set_option maxRecDepth 16384

/-
  The kernel program's two gathers and two transposes read at an index.

  Each gather takes, for pair `p`, the one start index word `J (p, 0)`, reads it signed and clamps it into the table
  of 20000 atoms (`clampAtom`), and copies the whole slice over the other axes: entry `(s, c, p)` of the gathered
  predicted array is entry `(s, c, clampAtom (J (p, 0)))` of its operand, entry `(c, p)` of the gathered true array is
  entry `(c, clampAtom (J (p, 0)))`. Composed with the transposes that put the space axis before the atom axis, and with
  the wrapping of negative indices, the gathered arrays hold the coordinates of atom `atom (I p)` (`gatheredP_apply`,
  `gatheredT_apply`).
-/
noncomputable section

open Idealize.ShloMosaic Idealize.ShloMosaic.TcCoe Idealize.SL.Sem
open Idealize.ShloMosaic.Pipeline (Dat)

namespace Cert.KernelIdeal.KValue
open Cert.KernelIdeal Cert.KernelIdeal.Gen Idealize.ShloMosaic.ValueIdx Cert.Lddt

variable {α : Type}

/-- The clamp of a start index word into the table of 20000 atoms. -/
def clampAtom (w : BitVec 32) : Fin 20000 := ⟨min w.toInt.toNat 19999, by omega⟩

theorem gatherP_apply (X : S5x3x20000.Idx → α) (J : IVec S4000000x1 32) (s : Fin 5) (k : Fin 3) (p : Fin 4000000) :
    Host.gather gather_S5x3x20000_S4000000x1_S5x3x4000000_01_2_n_n_2_1_531 X J (ix3 s k p)
      = X (ix3 s k (clampAtom (J (ix2 p (0 : Fin 1))))) := by
  have e0 : (gather_S5x3x20000_S4000000x1_S5x3x4000000_01_2_n_n_2_1_531.operandIdx (ix3 s k p) J (0 : Fin 3)).val = s.val := by
    show gather_S5x3x20000_S4000000x1_S5x3x4000000_01_2_n_n_2_1_531.start (ix3 s k p) J 0
      + gather_S5x3x20000_S4000000x1_S5x3x4000000_01_2_n_n_2_1_531.batchCoord (ix3 s k p) 0
      + gather_S5x3x20000_S4000000x1_S5x3x4000000_01_2_n_n_2_1_531.offCoord (ix3 s k p) 0 = _
    rw [GatherDims.batchCoord_eq_zero _ _ _ List.not_mem_nil, Nat.add_zero, GatherDims.start, dif_neg (by decide),
      GatherDims.offCoord, dif_pos (by decide), Nat.zero_add]
    rfl
  have e1 : (gather_S5x3x20000_S4000000x1_S5x3x4000000_01_2_n_n_2_1_531.operandIdx (ix3 s k p) J (1 : Fin 3)).val = k.val := by
    show gather_S5x3x20000_S4000000x1_S5x3x4000000_01_2_n_n_2_1_531.start (ix3 s k p) J 1
      + gather_S5x3x20000_S4000000x1_S5x3x4000000_01_2_n_n_2_1_531.batchCoord (ix3 s k p) 1
      + gather_S5x3x20000_S4000000x1_S5x3x4000000_01_2_n_n_2_1_531.offCoord (ix3 s k p) 1 = _
    rw [GatherDims.batchCoord_eq_zero _ _ _ List.not_mem_nil, Nat.add_zero, GatherDims.start, dif_neg (by decide),
      GatherDims.offCoord, dif_pos (by decide), Nat.zero_add]
    rfl
  have e2 : (gather_S5x3x20000_S4000000x1_S5x3x4000000_01_2_n_n_2_1_531.operandIdx (ix3 s k p) J (2 : Fin 3)).val
      = (clampAtom (J (ix2 p (0 : Fin 1)))).val := by
    show gather_S5x3x20000_S4000000x1_S5x3x4000000_01_2_n_n_2_1_531.start (ix3 s k p) J 2
      + gather_S5x3x20000_S4000000x1_S5x3x4000000_01_2_n_n_2_1_531.batchCoord (ix3 s k p) 2
      + gather_S5x3x20000_S4000000x1_S5x3x4000000_01_2_n_n_2_1_531.offCoord (ix3 s k p) 2 = _
    rw [GatherDims.batchCoord_eq_zero _ _ _ List.not_mem_nil, Nat.add_zero,
      GatherDims.offCoord_eq_zero _ _ _ (by decide), Nat.add_zero, GatherDims.start, dif_pos (by decide)]
    have hsi : gather_S5x3x20000_S4000000x1_S5x3x4000000_01_2_n_n_2_1_531.siIdx (ix3 s k p)
        ⟨List.idxOf (2 : Fin 3) gather_S5x3x20000_S4000000x1_S5x3x4000000_01_2_n_n_2_1_531.startIndexMap,
          List.idxOf_lt_length_iff.2 (by decide)⟩ = ix2 p (0 : Fin 1) := by
      funext b; refine Fin.ext ?_
      match b with
      | ⟨0, _⟩ => rfl
      | ⟨1, _⟩ => rfl
    rw [hsi]
    rfl
  unfold Host.gather
  refine congrArg X ?_
  funext a; refine Fin.ext ?_
  fin_cases a
  · exact e0
  · exact e1
  · exact e2

theorem gatherT_apply (X : S3x20000.Idx → α) (J : IVec S4000000x1 32) (k : Fin 3) (p : Fin 4000000) :
    Host.gather gather_S3x20000_S4000000x1_S3x4000000_0_1_n_n_1_1_31 X J (ix2 k p)
      = X (ix2 k (clampAtom (J (ix2 p (0 : Fin 1))))) := by
  have e0 : (gather_S3x20000_S4000000x1_S3x4000000_0_1_n_n_1_1_31.operandIdx (ix2 k p) J (0 : Fin 2)).val = k.val := by
    show gather_S3x20000_S4000000x1_S3x4000000_0_1_n_n_1_1_31.start (ix2 k p) J 0
      + gather_S3x20000_S4000000x1_S3x4000000_0_1_n_n_1_1_31.batchCoord (ix2 k p) 0
      + gather_S3x20000_S4000000x1_S3x4000000_0_1_n_n_1_1_31.offCoord (ix2 k p) 0 = _
    rw [GatherDims.batchCoord_eq_zero _ _ _ List.not_mem_nil, Nat.add_zero, GatherDims.start, dif_neg (by decide),
      GatherDims.offCoord, dif_pos (by decide), Nat.zero_add]
    rfl
  have e1 : (gather_S3x20000_S4000000x1_S3x4000000_0_1_n_n_1_1_31.operandIdx (ix2 k p) J (1 : Fin 2)).val
      = (clampAtom (J (ix2 p (0 : Fin 1)))).val := by
    show gather_S3x20000_S4000000x1_S3x4000000_0_1_n_n_1_1_31.start (ix2 k p) J 1
      + gather_S3x20000_S4000000x1_S3x4000000_0_1_n_n_1_1_31.batchCoord (ix2 k p) 1
      + gather_S3x20000_S4000000x1_S3x4000000_0_1_n_n_1_1_31.offCoord (ix2 k p) 1 = _
    rw [GatherDims.batchCoord_eq_zero _ _ _ List.not_mem_nil, Nat.add_zero,
      GatherDims.offCoord_eq_zero _ _ _ (by decide), Nat.add_zero, GatherDims.start, dif_pos (by decide)]
    have hsi : gather_S3x20000_S4000000x1_S3x4000000_0_1_n_n_1_1_31.siIdx (ix2 k p)
        ⟨List.idxOf (1 : Fin 2) gather_S3x20000_S4000000x1_S3x4000000_0_1_n_n_1_1_31.startIndexMap,
          List.idxOf_lt_length_iff.2 (by decide)⟩ = ix2 p (0 : Fin 1) := by
      funext b; refine Fin.ext ?_
      match b with
      | ⟨0, _⟩ => rfl
      | ⟨1, _⟩ => rfl
    rw [hsi]
    rfl
  unfold Host.gather
  refine congrArg X ?_
  funext a; refine Fin.ext ?_
  fin_cases a
  · exact e0
  · exact e1

end Cert.KernelIdeal.KValue
end
-- ==== Proof.KArrays.lean ====
import proofs.«147747_j84817014161962_2_alg».proof.Proof.KBlocks
import proofs.«147747_j84817014161962_2_alg».proof.Proof.KGather
import Idealize.ShloMosaic.Lib.IdealHost

set_option maxRecDepth 16384

/-
  The kernel's gathered arrays read down to the arguments: entry `(s, c, p)` of a gathered predicted array is the
  coordinate `c` of atom `atom (I p)` in sample `s` of the predicted table, entry `(c, p)` of a gathered true array the
  coordinate `c` of that atom in the true table. The wrapped index column at `(p, 0)` is the wrapped word of `I p`
  (the two broadcasts of the constants `0` and `20000` read the constants), the gather clamps it, and the transposes
  exchange the space axis and the atom axis.
-/
noncomputable section

open Idealize.ShloMosaic Idealize.ShloMosaic.TcCoe Idealize.SL.Sem
open Idealize.ShloMosaic.Pipeline (Dat)

namespace Cert.KernelIdeal.KValue
open Cert.KernelIdeal Cert.KernelIdeal.Gen Idealize.ShloMosaic.ValueIdx Cert.Lddt

theorem wrapColK_apply (I : (⟨S4000000, .i32⟩ : BufTy).Contents (Elt Ideal)) (p : Fin 4000000) :
    wrapColK (F := Ideal) I (ix2 p (0 : Fin 1)) = wrapWord (I (ix1 p)) := by
  unfold wrapColK
  refine (broadcastInDim_apply _ _ _ (ix2 p (0 : Fin 1)) (ix1 p)
    (fun a => match a with
      | ⟨0, h0⟩ => by
        have hne : ¬ ((⟨1, ![4000000]⟩ : Shape).size ⟨0, h0⟩ = 1) :=
          fun e => absurd (show (4000000 : ℕ) = 1 from e) (by decide)
        rw [if_neg hne]
        rfl)).trans ?_
  show Scalar.select (IntOp.cmpi .slt (I (ix1 p)) (broadcastInDim S4000000 ![] bcast_S_S4000000 (constantI S_ 32 0#32) (ix1 p)))
      (IntOp.addi (I (ix1 p)) (broadcastInDim S4000000 ![] bcast_S_S4000000 (constantI S_ 32 20000#32) (ix1 p))) (I (ix1 p)) = _
  rw [broadcastInDim_scalar_apply, broadcastInDim_scalar_apply]
  rfl

theorem gatheredP_apply (A0 : (⟨S5x20000x3, .f32⟩ : BufTy).Contents (Elt Ideal)) (I : (⟨S4000000, .i32⟩ : BufTy).Contents (Elt Ideal))
    (s : Fin 5) (k : Fin 3) (p : Fin 4000000) :
    gatheredP (F := Ideal) A0 I (ix3 s k p) = A0 (ix3 s (atom (I (ix1 p))) k) := by
  unfold gatheredP
  refine (gatherP_apply _ _ s k p).trans ?_
  refine (transpose_ix3_021_apply A0 _ s k _).trans ?_
  rw [wrapColK_apply]
  rfl

theorem gatheredT_apply (A1 : (⟨S20000x3, .f32⟩ : BufTy).Contents (Elt Ideal)) (I : (⟨S4000000, .i32⟩ : BufTy).Contents (Elt Ideal))
    (k : Fin 3) (p : Fin 4000000) :
    gatheredT (F := Ideal) A1 I (ix2 k p) = A1 (ix2 (atom (I (ix1 p))) k) := by
  unfold gatheredT
  refine (gatherT_apply _ _ k p).trans ?_
  refine (transpose_ix2_apply A1 _ k _).trans ?_
  rw [wrapColK_apply]
  rfl

end Cert.KernelIdeal.KValue
end
-- ==== Proof.KFold.lean ====
import proofs.«147747_j84817014161962_2_alg».proof.Proof.KCases
import proofs.«147747_j84817014161962_2_alg».proof.Proof.KPayload
import proofs.«147747_j84817014161962_2_alg».proof.Proof.KArrays
import Idealize.ShloMosaic.Lib.Pipeline.Value
import Idealize.ShloMosaic.Lib.StableHlo.Run

set_option maxRecDepth 16384

/-
  The kernel program's result as a function of its arguments, on the extended reals.

  The accumulator block [5, 1] never moves: it is written back once, after the last of the 125 grid points. What it
  holds after point `n` is a fold over the points (`chain`): the block of zeros updated by point 0, then by points
  1 … n, each update adding to column `s` the sum of that point's 32000 pair scores of sample `s` (`step_blocks`: a
  lane of point `t` is pair `32000 · t + q`, and its score is the score of the atoms the two index arrays select
  there). So column `s` after point `n` is the running total of the blocks `0 … n` (`chain_apply`), and the last point
  scales it by 1/4000000 (`outsAt_last`): the written-back block holds, at `(s, 0)`, the blockwise mean of sample `s`'s
  pair scores. The one block is the whole [5, 1] array (`final_acc`); the host line after the region reads it as a
  [5] vector (`tail_eq`, `kOut_apply`).
-/
noncomputable section

open Idealize.ShloMosaic Idealize.ShloMosaic.TcCoe Idealize.SL.Sem
open Idealize.ShloMosaic.Pipeline (Dat)

namespace Cert.KernelIdeal.KValue
open Cert.KernelIdeal Cert.KernelIdeal.Gen Idealize.ShloMosaic.ValueIdx Idealize.ShloMosaic.StableHlo Cert.Lddt
open scoped BigOperators

variable (m : (ℓ : Loc nD τ sig) → Buf (Elt Ideal) ℓ) (ρ : Dev nD → PrngReg)

/-- The score of pair `p` in sample `s`, from core `c`'s argument arrays as launched. -/
def scoreOf (c : Dev nD) (s : Fin 5) (p : Fin 4000000) : EReal :=
  scoreK (pairErr (m ((c : Thread nD τ).loc main_arg0)) (m ((c : Thread nD τ).loc main_arg1))
    (m ((c : Thread nD τ).loc main_arg2)) (m ((c : Thread nD τ).loc main_arg3)) s p)

/-- Entry `(s, k, q)` of the first window's block at point `t`: coordinate `k` of the atom the first index array selects
    at pair `32000 · t + q`, in sample `s` of the predicted table. Likewise the other three windows. -/
theorem rd0 (c : Dev nD) (t : Fin cfg0.N) (s : Fin 5) (k : Fin 3) (q : Fin 32000) :
    (iblk m c 0 t : Vec Ideal S5x3x32000 .f32) (ix3 s k q)
      = m ((c : Thread nD τ).loc main_arg0) (ix3 s (atom (m ((c : Thread nD τ).loc main_arg2) (ix1 (pairOf t q)))) k) :=
  (blk0_apply m c t s k q).trans ((congrFun (V_l_pred m c) _).trans (gatheredP_apply _ _ s k _))
theorem rd1 (c : Dev nD) (t : Fin cfg0.N) (s : Fin 5) (k : Fin 3) (q : Fin 32000) :
    (iblk m c 1 t : Vec Ideal S5x3x32000 .f32) (ix3 s k q)
      = m ((c : Thread nD τ).loc main_arg0) (ix3 s (atom (m ((c : Thread nD τ).loc main_arg3) (ix1 (pairOf t q)))) k) :=
  (blk1_apply m c t s k q).trans ((congrFun (V_m_pred m c) _).trans (gatheredP_apply _ _ s k _))
theorem rd2 (c : Dev nD) (t : Fin cfg0.N) (k : Fin 3) (q : Fin 32000) :
    (iblk m c 2 t : Vec Ideal S3x32000 .f32) (ix2 k q)
      = m ((c : Thread nD τ).loc main_arg1) (ix2 (atom (m ((c : Thread nD τ).loc main_arg2) (ix1 (pairOf t q)))) k) :=
  (blk2_apply m c t k q).trans ((congrFun (V_l_true m c) _).trans (gatheredT_apply _ _ k _))
theorem rd3 (c : Dev nD) (t : Fin cfg0.N) (k : Fin 3) (q : Fin 32000) :
    (iblk m c 3 t : Vec Ideal S3x32000 .f32) (ix2 k q)
      = m ((c : Thread nD τ).loc main_arg1) (ix2 (atom (m ((c : Thread nD τ).loc main_arg3) (ix1 (pairOf t q)))) k) :=
  (blk3_apply m c t k q).trans ((congrFun (V_m_true m c) _).trans (gatheredT_apply _ _ k _))

/-- A lane of a point's blocks is a pair of the arrays: its score is that pair's. -/
theorem lane_eq (c : Dev nD) (t : Fin cfg0.N) (s : Fin 5) (q : Fin 32000) :
    scoreK (absErr (fun k => (iblk m c 0 t : Vec Ideal S5x3x32000 .f32) (ix3 s k q))
        (fun k => (iblk m c 1 t : Vec Ideal S5x3x32000 .f32) (ix3 s k q))
        (fun k => (iblk m c 2 t : Vec Ideal S3x32000 .f32) (ix2 k q))
        (fun k => (iblk m c 3 t : Vec Ideal S3x32000 .f32) (ix2 k q)))
      = scoreOf m c s (pairOf t q) := by
  unfold scoreOf pairErr
  simp only [rd0, rd1, rd2, rd3]

/-- One point's update at column `s`: the block's sum of sample `s`'s pair scores is added. -/
theorem step_blocks (c : Dev nD) (t : Fin cfg0.N) (acc : Vec Ideal S5x1 .f32) (s : Fin 5) :
    step (iblk m c 0 t) (iblk m c 1 t) (iblk m c 2 t) (iblk m c 3 t) acc (ix2 s (0 : Fin 1))
      = acc (ix2 s (0 : Fin 1))
        + blockSum (scoreOf m c s) t.val (lt_of_lt_of_eq t.isLt (show cfg0.N = 125 from N_0)) := by
  unfold step blockSum
  refine (step_apply (iblk m c 0 t) (iblk m c 1 t) (iblk m c 2 t) (iblk m c 3 t) acc s).trans ?_
  refine congrArg (fun x => acc (ix2 s (0 : Fin 1)) + (z32 + x)) (Finset.sum_congr rfl fun q _ => ?_)
  exact lane_eq m c t s q

/-- The accumulator block after point `n`, before any scaling: the zero block updated by the points `0 … n`. -/
def chain (c : Dev nD) : (n : ℕ) → n < cfg0.N → Vec Ideal S5x1 .f32
  | 0, h => step (iblk m c 0 ⟨0, h⟩) (iblk m c 1 ⟨0, h⟩) (iblk m c 2 ⟨0, h⟩) (iblk m c 3 ⟨0, h⟩) (k0_pay3 (F := Ideal))
  | n + 1, h => step (iblk m c 0 ⟨n + 1, h⟩) (iblk m c 1 ⟨n + 1, h⟩) (iblk m c 2 ⟨n + 1, h⟩) (iblk m c 3 ⟨n + 1, h⟩)
      (chain c n (Nat.lt_of_succ_lt h))

/-- Before the last point the staging buffer holds the fold: by induction on the point. -/
theorem outsAt_lt (c : Dev nD) : ∀ (n : ℕ) (h : n < cfg0.N), n < 124 → outsAt0 m c n h = chain m c n h
  | 0, h, _ => (outsAt0_A m c ⟨0, h⟩ rfl (by show ¬ (0 : ℕ) % 125 = 124; decide)).trans (out_first ..)
  | n + 1, h, h' => by
    have hB0 : ¬(⟨n + 1, h⟩ : Fin cfg0.N).val % 125 = 0 := by dsimp only; omega
    have hB1 : ¬(⟨n + 1, h⟩ : Fin cfg0.N).val % 125 = 124 := by dsimp only; omega
    rw [outsAt0_B m c ⟨n + 1, h⟩ hB0 hB1, out_middle]
    show step _ _ _ _ (outsAt0 m c n _) = step _ _ _ _ (chain m c n _)
    rw [outsAt_lt c n (Nat.lt_of_succ_lt h) (by omega)]

/-- The last point of the grid. -/
def tLast : Fin cfg0.N := ⟨124, by rw [show cfg0.N = 125 from N_0]; decide⟩

/-- After the last point the staging buffer holds the fold, scaled. -/
theorem outsAt_last (c : Dev nD) : outsAt0 m c tLast.val tLast.isLt = k0_pay2 (chain m c 124 tLast.isLt) := by
  have hC0 : ¬(tLast : Fin cfg0.N).val % 125 = 0 := by decide
  have hC1 : (tLast : Fin cfg0.N).val % 125 = 124 := by decide
  rw [outsAt0_C m c tLast hC0 hC1, out_last]
  exact congrArg (fun a => k0_pay2 (step (iblk m c 0 tLast) (iblk m c 1 tLast) (iblk m c 2 tLast) (iblk m c 3 tLast) a))
    (outsAt_lt m c 123 (by rw [show cfg0.N = 125 from N_0]; decide) (by decide))

/-- Column `s` of the fold after point `n` is the running total of the blocks `0 … n`. -/
theorem chain_apply (c : Dev nD) (s : Fin 5) : ∀ (n : ℕ) (h : n < cfg0.N),
    chain m c n h (ix2 s (0 : Fin 1)) = accK (scoreOf m c s) n (lt_of_lt_of_eq h (show cfg0.N = 125 from N_0))
  | 0, h => by
    unfold chain accK
    rw [step_blocks m c ⟨0, h⟩ _ s]
    rfl
  | n + 1, h => by
    unfold chain accK
    rw [step_blocks m c ⟨n + 1, h⟩ _ s, chain_apply c s n (Nat.lt_of_succ_lt h)]

/-- The block written back: the scaled fold. -/
abbrev accOut (c : Dev nD) : Buf (Elt Ideal) ((c : Thread nD τ).loc main_v30) := k0_pay2 (chain m c 124 tLast.isLt)

/-- The one write-back, at the last point, writes it: the one block of the [5, 1] array read through zero offsets
    is the array. -/
theorem flushed_eq (c : Dev nD) (t : Fin cfg0.N) (hf : (cfg0.win 4).flush t = true) :
    (dats m 0 c).flushed 4 t = ((cfg0.win 4).blk t).view.read (Elt Ideal) (accOut m c) := by
  have hN : cfg0.N = 125 := N_0
  have h3 : t.val = 124 := by have := (flush0_4 t).mp hf; have := t.isLt; omega
  obtain rfl : t = tLast := Fin.ext h3
  show (cfg0.win 4).cut (grid0.coords tLast) ((dats m 0 c).after 4 tLast) = _
  rw [after0_4, outsAt_last]
  have hz' : (fun a => win0_4.index tLast a * main_v30.ty.shape.size a) = fun _ => 0 :=
    funext fun a => by fin_cases a <;> decide
  exact (Memref.read_access_unit_zero (Elt Ideal) main_v30 hz' (fun a => by rw [congrFun hz' a]; simp) (accOut m c)).symm

/-- So the accumulator array ends holding the scaled fold: the last point's block covers it. -/
theorem final_acc (c : Dev nD) : (dats m 0 c).arrAt 4 cfg0.N = accOut m c :=
  (dats m 0 c).arrAt_eq_of_cover 4 (accOut m c) (flushed_eq m c) fun i =>
    ⟨tLast, (flush0_4 tLast).mpr (by decide), by
      show i ∈ ((View.whole main_v30).slice (win0_4.rect tLast)).set
      rw [View.set_slice_whole, Rect.mem_set_unit]
      intro a
      have h0 : (i 0 : Nat) < 5 := (i 0).isLt
      have h1 : (i 1 : Nat) < 1 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 5 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 1 from by decide +kernel]; omega⟩

/-- The program's result: the accumulator array read as a [5] vector. -/
def kOut (c : Dev nD) : Buf (Elt Ideal) ((c : Thread nD τ).loc main_v31) :=
  shapeCast S5 (accOut m c) shapeCasts_S5x1_S5

/-- The host line after the region reshapes the accumulator array. -/
theorem tail_eq (c : Dev nD) :
    Pipeline.afterTail₀ cfgs (dats m) 0 (V0 m) [hostOps1] c main_v31 = kOut m c := by
  unfold Pipeline.afterTail₀ kOut
  show StableHlo.after hostOps1 _ (Proc.devRef .tc main_v31) = _
  after_results
  have e : Pipeline.withArrays (cfgs 0).spec c (V0 m c) (fun w => (dats m 0 c).arrAt w (cfgs 0).N) (Proc.devRef .tc main_v30)
      = accOut m c :=
    (Pipeline.withArrays_arr spec0 launch0.win.arr_inj c (V0 m c) (fun w => (dats m 0 c).arrAt w cfg0.N) 4).trans (final_acc m c)
  rw [e]
  rfl

/-- A [5, 1] array read as a [5] vector reads, at `s`, the operand at `(s, 0)`. -/
theorem vecCast_apply {α : Type} (x : S5x1.Idx → α) (h : S5x1.ShapeCasts S5) (s : Fin 5) :
    shapeCast S5 x h (ix1 s) = x (ix2 s (0 : Fin 1)) :=
  shapeCast_apply x h _ _ (by
    rw [Shape.rowMajor_val_two, Shape.rowMajor_val_one]
    show s.val * 1 + 0 = s.val
    omega)

/-- THE RESULT at sample `s`: the blockwise mean of the sample's pair scores. -/
theorem kOut_apply (c : Dev nD) (s : Fin 5) : kOut m c (ix1 s) = totalK (scoreOf m c s) := by
  unfold kOut totalK
  refine (vecCast_apply _ _ s).trans ?_
  refine (scale_apply _ _).trans ?_
  rw [chain_apply m c s 124 tLast.isLt]

/-- The run, read: the result at `kOut`, the four arguments unchanged. -/
theorem run : θ_run defs (onTc (τ := τ) (main (F := Ideal))) ⟨m, fun _ => 0, ρ⟩ fun r => ∀ c : Dev nD,
      r.2.mem ((c.tc : Thread nD τ).loc main_v31) = kOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v31 (Pipeline.mem_restRefs_of main_v31 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue
end
-- ==== Proof.RefRun.lean ====
/-
  The reference program's run, read back as one named term of the argument contents.

  @main of the reference is a straight line of 67 host operations (the two calls of the module-local norm
  functions unfolded at their call sites, four operations each).  The library's theorem for such a line says
  that every weakly fair execution terminates with each buffer at the fold of the operations' results over the
  launch contents; the fold at the result buffer is computed here and shown to be `refOut` of the four
  arguments' launch contents, the arguments themselves being left as they were.

  `refOut` mirrors the program: the two index columns are wrapped (a negative index counts from the end of the
  20000 points), the predicted and the true pair distances are the Euclidean norms of the differences of the
  gathered points, the absolute error of the predicted distance is compared with each of the four thresholds
  1/2, 1, 2, 4, the fraction of thresholds it lies under is averaged over the 4000000 pairs.
-/
import proofs.«147747_j84817014161962_2_alg».proof.ReferenceIdeal
import proofs.«147747_j84817014161962_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The value, as a term of the four arguments -/

/-- An index column wrapped and made a column of one-element index vectors: a negative index `i` reads point
    `i + 20000`, any other index itself. -/
def wrapCol (I : (⟨S4000000, .i32⟩ : BufTy).Contents (Elt F)) : (⟨S4000000x1, .i32⟩ : BufTy).Contents (Elt F) :=
  broadcastInDim S4000000x1 ![0] bcast_S4000000_S4000000x1_0
    (select (cmpi .slt I (broadcastInDim S4000000 ![] bcast_S_S4000000 (constantI S_ 32 0#32)))
      (addi I (broadcastInDim S4000000 ![] bcast_S_S4000000 (constantI S_ 32 20000#32))) I)

/-- The predicted points of each pair, subtracted: per model and pair, the three coordinates' differences. -/
def predDiff (A0 : (⟨S5x20000x3, .f32⟩ : BufTy).Contents (Elt F)) (I2 I3 : (⟨S4000000, .i32⟩ : BufTy).Contents (Elt F)) : (⟨S5x4000000x3, .f32⟩ : BufTy).Contents (Elt F) :=
  subf (Host.gather gather_S5x20000x3_S4000000x1_S5x4000000x3_02_1_n_n_1_1_513 A0 (wrapCol (F := F) I2))
    (Host.gather gather_S5x20000x3_S4000000x1_S5x4000000x3_02_1_n_n_1_1_513 A0 (wrapCol (F := F) I3))

/-- The predicted distance of each pair, per model: the root of the sum of the squared coordinate differences. -/
def predDist (A0 : (⟨S5x20000x3, .f32⟩ : BufTy).Contents (Elt F)) (I2 I3 : (⟨S4000000, .i32⟩ : BufTy).Contents (Elt F)) : (⟨S5x4000000, .f32⟩ : BufTy).Contents (Elt F) :=
  Host.sqrt (Host.reduceAdd (mulf (predDiff A0 I2 I3) (predDiff A0 I2 I3)) (constant S_ .f32 0x00000000#32)
    reducesTo_S5x4000000x3_S5x4000000_d2 h_S_)

/-- The true points of each pair, subtracted. -/
def trueDiff (A1 : (⟨S20000x3, .f32⟩ : BufTy).Contents (Elt F)) (I2 I3 : (⟨S4000000, .i32⟩ : BufTy).Contents (Elt F)) : (⟨S4000000x3, .f32⟩ : BufTy).Contents (Elt F) :=
  subf (Host.gather gather_S20000x3_S4000000x1_S4000000x3_1_0_n_n_0_1_13 A1 (wrapCol (F := F) I2))
    (Host.gather gather_S20000x3_S4000000x1_S4000000x3_1_0_n_n_0_1_13 A1 (wrapCol (F := F) I3))

/-- The true distance of each pair. -/
def trueDist (A1 : (⟨S20000x3, .f32⟩ : BufTy).Contents (Elt F)) (I2 I3 : (⟨S4000000, .i32⟩ : BufTy).Contents (Elt F)) : (⟨S4000000, .f32⟩ : BufTy).Contents (Elt F) :=
  Host.sqrt (Host.reduceAdd (mulf (trueDiff A1 I2 I3) (trueDiff A1 I2 I3)) (constant S_ .f32 0x00000000#32)
    reducesTo_S4000000x3_S4000000_d1 h_S_)

/-- The absolute error of the predicted distance, per model and pair (the true distance repeated along the
    models, in two steps). -/
def absErr (A0 : (⟨S5x20000x3, .f32⟩ : BufTy).Contents (Elt F)) (A1 : (⟨S20000x3, .f32⟩ : BufTy).Contents (Elt F)) (I2 I3 : (⟨S4000000, .i32⟩ : BufTy).Contents (Elt F)) :
    (⟨S5x4000000, .f32⟩ : BufTy).Contents (Elt F) :=
  Host.absf (subf (predDist A0 I2 I3)
    (broadcastInDim S5x4000000 ![0, 1] bcast_S1x4000000_S5x4000000_0_1
      (broadcastInDim S1x4000000 ![1] bcast_S4000000_S1x4000000_1 (trueDist A1 I2 I3))))

/-- The four thresholds 1/2, 1, 2, 4, by their bit patterns. -/
def thresholds : (⟨S4, .f32⟩ : BufTy).Contents (Elt F) := fun i => FloatOps.ofBits .f32 (lit0 (S4.rowMajor i))

/-- Per model and pair, the fraction of the four thresholds the absolute error lies strictly under. -/
def pairScore (A0 : (⟨S5x20000x3, .f32⟩ : BufTy).Contents (Elt F)) (A1 : (⟨S20000x3, .f32⟩ : BufTy).Contents (Elt F)) (I2 I3 : (⟨S4000000, .i32⟩ : BufTy).Contents (Elt F)) :
    (⟨S5x4000000, .f32⟩ : BufTy).Contents (Elt F) :=
  Host.divf
    (Host.reduceAdd
      (uitofp .f32
        (cmpf .olt
          (broadcastInDim S5x4000000x4 ![0, 1, 2] bcast_S5x4000000x1_S5x4000000x4_0_1_2
            (broadcastInDim S5x4000000x1 ![0, 1] bcast_S5x4000000_S5x4000000x1_0_1 (absErr A0 A1 I2 I3)))
          (broadcastInDim S5x4000000x4 ![0, 1, 2] bcast_S1x1x4_S5x4000000x4_0_1_2
            (broadcastInDim S1x1x4 ![2] bcast_S4_S1x1x4_2 (thresholds (F := F))))))
      (constant S_ .f32 0x00000000#32) reducesTo_S5x4000000x4_S5x4000000_d2 h_S_)
    (broadcastInDim S5x4000000 ![] bcast_S_S5x4000000 (constant S_ .f32 0x40800000#32))

/-- Per model, the mean of the pair scores over the 4000000 pairs: what the reference returns. -/
def refOut (A0 : (⟨S5x20000x3, .f32⟩ : BufTy).Contents (Elt F)) (A1 : (⟨S20000x3, .f32⟩ : BufTy).Contents (Elt F)) (I2 I3 : (⟨S4000000, .i32⟩ : BufTy).Contents (Elt F)) :
    (⟨S5, .f32⟩ : BufTy).Contents (Elt F) :=
  Host.divf (Host.reduceAdd (pairScore A0 A1 I2 I3) (constant S_ .f32 0x00000000#32) reducesTo_S5x4000000_S5_d1 h_S_)
    (broadcastInDim S5 ![] bcast_S_S5 (constant S_ .f32 0x4A742400#32))

/-! ## The program as a line of operations -/

/-- @main's 67 operations, in order, each call's four at its call site. -/
abbrev ops : List (HloOp τ sig (Elt F)) :=
  [
    nullary main_cst (fun i => FloatOps.ofBits .f32 (lit0 (S4.rowMajor i))),
    nullary main_c (constantI S_ 32 0#32),
    unary main_c main_v0 (broadcastInDim S4000000 ![] bcast_S_S4000000 : (⟨S_, .i32⟩ : BufTy).Contents (Elt F) → (⟨S4000000, .i32⟩ : BufTy).Contents (Elt F)),
    binary main_arg2 main_v0 main_v1 (cmpi .slt : (⟨S4000000, .i32⟩ : BufTy).Contents (Elt F) → (⟨S4000000, .i32⟩ : BufTy).Contents (Elt F) → (⟨S4000000, .i1⟩ : BufTy).Contents (Elt F)),
    nullary main_c_0 (constantI S_ 32 20000#32),
    unary main_c_0 main_v2 (broadcastInDim S4000000 ![] bcast_S_S4000000 : (⟨S_, .i32⟩ : BufTy).Contents (Elt F) → (⟨S4000000, .i32⟩ : BufTy).Contents (Elt F)),
    binary main_arg2 main_v2 main_v3 (addi : (⟨S4000000, .i32⟩ : BufTy).Contents (Elt F) → (⟨S4000000, .i32⟩ : BufTy).Contents (Elt F) → (⟨S4000000, .i32⟩ : BufTy).Contents (Elt F)),
    ternary main_v1 main_v3 main_arg2 main_v4 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    unary main_v4 main_v5 (broadcastInDim S4000000x1 ![0] bcast_S4000000_S4000000x1_0 : (⟨S4000000, .i32⟩ : BufTy).Contents (Elt F) → (⟨S4000000x1, .i32⟩ : BufTy).Contents (Elt F)),
    binary main_arg0 main_v5 main_v6 ((fun x i => Host.gather gather_S5x20000x3_S4000000x1_S5x4000000x3_02_1_n_n_1_1_513 x i) : (⟨S5x20000x3, .f32⟩ : BufTy).Contents (Elt F) → (⟨S4000000x1, .i32⟩ : BufTy).Contents (Elt F) → (⟨S5x4000000x3, .f32⟩ : BufTy).Contents (Elt F)),
    nullary main_c_1 (constantI S_ 32 0#32),
    unary main_c_1 main_v7 (broadcastInDim S4000000 ![] bcast_S_S4000000 : (⟨S_, .i32⟩ : BufTy).Contents (Elt F) → (⟨S4000000, .i32⟩ : BufTy).Contents (Elt F)),
    binary main_arg3 main_v7 main_v8 (cmpi .slt : (⟨S4000000, .i32⟩ : BufTy).Contents (Elt F) → (⟨S4000000, .i32⟩ : BufTy).Contents (Elt F) → (⟨S4000000, .i1⟩ : BufTy).Contents (Elt F)),
    nullary main_c_2 (constantI S_ 32 20000#32),
    unary main_c_2 main_v9 (broadcastInDim S4000000 ![] bcast_S_S4000000 : (⟨S_, .i32⟩ : BufTy).Contents (Elt F) → (⟨S4000000, .i32⟩ : BufTy).Contents (Elt F)),
    binary main_arg3 main_v9 main_v10 (addi : (⟨S4000000, .i32⟩ : BufTy).Contents (Elt F) → (⟨S4000000, .i32⟩ : BufTy).Contents (Elt F) → (⟨S4000000, .i32⟩ : BufTy).Contents (Elt F)),
    ternary main_v8 main_v10 main_arg3 main_v11 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    unary main_v11 main_v12 (broadcastInDim S4000000x1 ![0] bcast_S4000000_S4000000x1_0 : (⟨S4000000, .i32⟩ : BufTy).Contents (Elt F) → (⟨S4000000x1, .i32⟩ : BufTy).Contents (Elt F)),
    binary main_arg0 main_v12 main_v13 ((fun x i => Host.gather gather_S5x20000x3_S4000000x1_S5x4000000x3_02_1_n_n_1_1_513 x i) : (⟨S5x20000x3, .f32⟩ : BufTy).Contents (Elt F) → (⟨S4000000x1, .i32⟩ : BufTy).Contents (Elt F) → (⟨S5x4000000x3, .f32⟩ : BufTy).Contents (Elt F)),
    binary main_v6 main_v13 main_v14 (subf : (⟨S5x4000000x3, .f32⟩ : BufTy).Contents (Elt F) → (⟨S5x4000000x3, .f32⟩ : BufTy).Contents (Elt F) → (⟨S5x4000000x3, .f32⟩ : BufTy).Contents (Elt F)),
    TRef.binary (.of main_v14) (.of main_v14) main_call0.v0 mulf,
    TRef.nullary main_call0.cst (constant S_ .f32 0x00000000#32),
    TRef.binary main_call0.v0 main_call0.cst main_call0.v1 (fun x v => Host.reduceAdd x v reducesTo_S5x4000000x3_S5x4000000_d2 h_S_),
    TRef.unary main_call0.v1 main_call0.v2 Host.sqrt,
    nullary main_c_3 (constantI S_ 32 0#32),
    unary main_c_3 main_v16 (broadcastInDim S4000000 ![] bcast_S_S4000000 : (⟨S_, .i32⟩ : BufTy).Contents (Elt F) → (⟨S4000000, .i32⟩ : BufTy).Contents (Elt F)),
    binary main_arg2 main_v16 main_v17 (cmpi .slt : (⟨S4000000, .i32⟩ : BufTy).Contents (Elt F) → (⟨S4000000, .i32⟩ : BufTy).Contents (Elt F) → (⟨S4000000, .i1⟩ : BufTy).Contents (Elt F)),
    nullary main_c_4 (constantI S_ 32 20000#32),
    unary main_c_4 main_v18 (broadcastInDim S4000000 ![] bcast_S_S4000000 : (⟨S_, .i32⟩ : BufTy).Contents (Elt F) → (⟨S4000000, .i32⟩ : BufTy).Contents (Elt F)),
    binary main_arg2 main_v18 main_v19 (addi : (⟨S4000000, .i32⟩ : BufTy).Contents (Elt F) → (⟨S4000000, .i32⟩ : BufTy).Contents (Elt F) → (⟨S4000000, .i32⟩ : BufTy).Contents (Elt F)),
    ternary main_v17 main_v19 main_arg2 main_v20 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    unary main_v20 main_v21 (broadcastInDim S4000000x1 ![0] bcast_S4000000_S4000000x1_0 : (⟨S4000000, .i32⟩ : BufTy).Contents (Elt F) → (⟨S4000000x1, .i32⟩ : BufTy).Contents (Elt F)),
    binary main_arg1 main_v21 main_v22 ((fun x i => Host.gather gather_S20000x3_S4000000x1_S4000000x3_1_0_n_n_0_1_13 x i) : (⟨S20000x3, .f32⟩ : BufTy).Contents (Elt F) → (⟨S4000000x1, .i32⟩ : BufTy).Contents (Elt F) → (⟨S4000000x3, .f32⟩ : BufTy).Contents (Elt F)),
    nullary main_c_5 (constantI S_ 32 0#32),
    unary main_c_5 main_v23 (broadcastInDim S4000000 ![] bcast_S_S4000000 : (⟨S_, .i32⟩ : BufTy).Contents (Elt F) → (⟨S4000000, .i32⟩ : BufTy).Contents (Elt F)),
    binary main_arg3 main_v23 main_v24 (cmpi .slt : (⟨S4000000, .i32⟩ : BufTy).Contents (Elt F) → (⟨S4000000, .i32⟩ : BufTy).Contents (Elt F) → (⟨S4000000, .i1⟩ : BufTy).Contents (Elt F)),
    nullary main_c_6 (constantI S_ 32 20000#32),
    unary main_c_6 main_v25 (broadcastInDim S4000000 ![] bcast_S_S4000000 : (⟨S_, .i32⟩ : BufTy).Contents (Elt F) → (⟨S4000000, .i32⟩ : BufTy).Contents (Elt F)),
    binary main_arg3 main_v25 main_v26 (addi : (⟨S4000000, .i32⟩ : BufTy).Contents (Elt F) → (⟨S4000000, .i32⟩ : BufTy).Contents (Elt F) → (⟨S4000000, .i32⟩ : BufTy).Contents (Elt F)),
    ternary main_v24 main_v26 main_arg3 main_v27 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    unary main_v27 main_v28 (broadcastInDim S4000000x1 ![0] bcast_S4000000_S4000000x1_0 : (⟨S4000000, .i32⟩ : BufTy).Contents (Elt F) → (⟨S4000000x1, .i32⟩ : BufTy).Contents (Elt F)),
    binary main_arg1 main_v28 main_v29 ((fun x i => Host.gather gather_S20000x3_S4000000x1_S4000000x3_1_0_n_n_0_1_13 x i) : (⟨S20000x3, .f32⟩ : BufTy).Contents (Elt F) → (⟨S4000000x1, .i32⟩ : BufTy).Contents (Elt F) → (⟨S4000000x3, .f32⟩ : BufTy).Contents (Elt F)),
    binary main_v22 main_v29 main_v30 (subf : (⟨S4000000x3, .f32⟩ : BufTy).Contents (Elt F) → (⟨S4000000x3, .f32⟩ : BufTy).Contents (Elt F) → (⟨S4000000x3, .f32⟩ : BufTy).Contents (Elt F)),
    TRef.binary (.of main_v30) (.of main_v30) main_call1.v0 mulf,
    TRef.nullary main_call1.cst (constant S_ .f32 0x00000000#32),
    TRef.binary main_call1.v0 main_call1.cst main_call1.v1 (fun x v => Host.reduceAdd x v reducesTo_S4000000x3_S4000000_d1 h_S_),
    TRef.unary main_call1.v1 main_call1.v2 Host.sqrt,
    unary main_v31 main_v32 (broadcastInDim S1x4000000 ![1] bcast_S4000000_S1x4000000_1 : (⟨S4000000, .f32⟩ : BufTy).Contents (Elt F) → (⟨S1x4000000, .f32⟩ : BufTy).Contents (Elt F)),
    unary main_v32 main_v33 (broadcastInDim S5x4000000 ![0, 1] bcast_S1x4000000_S5x4000000_0_1 : (⟨S1x4000000, .f32⟩ : BufTy).Contents (Elt F) → (⟨S5x4000000, .f32⟩ : BufTy).Contents (Elt F)),
    binary main_v15 main_v33 main_v34 (subf : (⟨S5x4000000, .f32⟩ : BufTy).Contents (Elt F) → (⟨S5x4000000, .f32⟩ : BufTy).Contents (Elt F) → (⟨S5x4000000, .f32⟩ : BufTy).Contents (Elt F)),
    unary main_v34 main_v35 (Host.absf : (⟨S5x4000000, .f32⟩ : BufTy).Contents (Elt F) → (⟨S5x4000000, .f32⟩ : BufTy).Contents (Elt F)),
    unary main_v35 main_v36 (broadcastInDim S5x4000000x1 ![0, 1] bcast_S5x4000000_S5x4000000x1_0_1 : (⟨S5x4000000, .f32⟩ : BufTy).Contents (Elt F) → (⟨S5x4000000x1, .f32⟩ : BufTy).Contents (Elt F)),
    unary main_cst main_v37 (broadcastInDim S1x1x4 ![2] bcast_S4_S1x1x4_2 : (⟨S4, .f32⟩ : BufTy).Contents (Elt F) → (⟨S1x1x4, .f32⟩ : BufTy).Contents (Elt F)),
    unary main_v36 main_v38 (broadcastInDim S5x4000000x4 ![0, 1, 2] bcast_S5x4000000x1_S5x4000000x4_0_1_2 : (⟨S5x4000000x1, .f32⟩ : BufTy).Contents (Elt F) → (⟨S5x4000000x4, .f32⟩ : BufTy).Contents (Elt F)),
    unary main_v37 main_v39 (broadcastInDim S5x4000000x4 ![0, 1, 2] bcast_S1x1x4_S5x4000000x4_0_1_2 : (⟨S1x1x4, .f32⟩ : BufTy).Contents (Elt F) → (⟨S5x4000000x4, .f32⟩ : BufTy).Contents (Elt F)),
    binary main_v38 main_v39 main_v40 (cmpf .olt : (⟨S5x4000000x4, .f32⟩ : BufTy).Contents (Elt F) → (⟨S5x4000000x4, .f32⟩ : BufTy).Contents (Elt F) → (⟨S5x4000000x4, .i1⟩ : BufTy).Contents (Elt F)),
    unary main_v40 main_v41 (uitofp .f32 : (⟨S5x4000000x4, .i1⟩ : BufTy).Contents (Elt F) → (⟨S5x4000000x4, .f32⟩ : BufTy).Contents (Elt F)),
    nullary main_cst_7 (constant S_ .f32 0x00000000#32),
    binary main_v41 main_cst_7 main_v42 ((fun x v => Host.reduceAdd x v reducesTo_S5x4000000x4_S5x4000000_d2 h_S_) : (⟨S5x4000000x4, .f32⟩ : BufTy).Contents (Elt F) → (⟨S_, .f32⟩ : BufTy).Contents (Elt F) → (⟨S5x4000000, .f32⟩ : BufTy).Contents (Elt F)),
    nullary main_cst_8 (constant S_ .f32 0x40800000#32),
    unary main_cst_8 main_v43 (broadcastInDim S5x4000000 ![] bcast_S_S5x4000000 : (⟨S_, .f32⟩ : BufTy).Contents (Elt F) → (⟨S5x4000000, .f32⟩ : BufTy).Contents (Elt F)),
    binary main_v42 main_v43 main_v44 (Host.divf : (⟨S5x4000000, .f32⟩ : BufTy).Contents (Elt F) → (⟨S5x4000000, .f32⟩ : BufTy).Contents (Elt F) → (⟨S5x4000000, .f32⟩ : BufTy).Contents (Elt F)),
    nullary main_cst_9 (constant S_ .f32 0x00000000#32),
    binary main_v44 main_cst_9 main_v45 ((fun x v => Host.reduceAdd x v reducesTo_S5x4000000_S5_d1 h_S_) : (⟨S5x4000000, .f32⟩ : BufTy).Contents (Elt F) → (⟨S_, .f32⟩ : BufTy).Contents (Elt F) → (⟨S5, .f32⟩ : BufTy).Contents (Elt F)),
    nullary main_cst_10 (constant S_ .f32 0x4A742400#32),
    unary main_cst_10 main_v46 (broadcastInDim S5 ![] bcast_S_S5 : (⟨S_, .f32⟩ : BufTy).Contents (Elt F) → (⟨S5, .f32⟩ : BufTy).Contents (Elt F)),
    binary main_v45 main_v46 main_v47 (Host.divf : (⟨S5, .f32⟩ : BufTy).Contents (Elt F) → (⟨S5, .f32⟩ : BufTy).Contents (Elt F) → (⟨S5, .f32⟩ : BufTy).Contents (Elt F)) ]

-- sixty-seven binds re-associated: the rewrite under the chain recurses once per statement
set_option maxRecDepth 4096 in
/-- @main is that straight line: the two windows and the two functions' bodies unfolded, both sides are one chain of
    steps once sequencing is reassociated. -/
theorem main_eq (c : Dev nD) : main (F := F) c = seq ops := by
  simp only [main, main_part0, main_part1, fn_norm.body, fn_norm_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., binary_bufs_sub .., nullary_bufs_sub .., binary_bufs_sub .., unary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., binary_bufs_sub .., nullary_bufs_sub .., binary_bufs_sub .., unary_bufs_sub .., unary_bufs_sub ..,
    unary_bufs_sub .., binary_bufs_sub .., unary_bufs_sub .., unary_bufs_sub .., unary_bufs_sub .., unary_bufs_sub ..,
    unary_bufs_sub .., binary_bufs_sub .., unary_bufs_sub .., nullary_bufs_sub .., binary_bufs_sub .., nullary_bufs_sub ..,
    unary_bufs_sub .., binary_bufs_sub .., nullary_bufs_sub .., binary_bufs_sub .., nullary_bufs_sub .., unary_bufs_sub ..,
    binary_bufs_sub ..⟩

/-! ## The fold at the result and at the arguments -/

attribute [local irreducible] Host.reduceAdd Host.gather broadcastInDim Host.sqrt Host.absf Host.divf in
set_option maxRecDepth 16384 in
set_option maxHeartbeats 1000000 in
/-- The fold at the result buffer is `refOut` of the arguments' contents, by computation: the fold unrolled, each
    operation's result decides whether the buffer read is the one it writes, and the typed references' transports
    are the identity at these literal references.  The reductions, the gathers and the re-indexings are kept folded
    meanwhile: the equation never looks inside them, and their bodies range over the operand's elements. -/
theorem out_eq (V : Valuation τ sig (Elt F)) :
    after ops V (main_v47 : DevRef τ sig)
      = refOut (V (main_arg0 : DevRef τ sig)) (V (main_arg1 : DevRef τ sig)) (V (main_arg2 : DevRef τ sig))
          (V (main_arg3 : DevRef τ sig)) := by
  simp only [after_cons, after_nil]
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

/-! ## The run -/

/-- On every device, for any float values, from any memory with zero counters: every weakly fair execution of
    @main terminates with the result buffer at `refOut` of the four arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47) = refOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v47).trans (out_eq _),
      (h c main_arg0).trans (arg0_eq _), (h c main_arg1).trans (arg1_eq _),
      (h c main_arg2).trans (arg2_eq _), (h c main_arg3).trans (arg3_eq _)⟩)
    (run_seq scopedRefs_eq scopedSems_eq defs main (fun _ => ops) main_eq (fun _ => ops_sub) m ρ)

end Cert.ReferenceIdeal.RefValue

end
-- ==== Proof.RefGather.lean ====
/-
  The reference's index columns and its two gathers, read at an index.

  An index column is wrapped element by element, so the wrapped column at a pair is the wrapped index word of the
  pair.  Each gather reads, per result index, the operand at the index whose coordinate on the atom axis is the
  start index of the pair — the wrapped word read signed and clamped into the table of 20000 atoms — and whose other
  coordinates are the result's own.
-/
import proofs.«147747_j84817014161962_2_alg».proof.Proof.RefRun
import proofs.«147747_j84817014161962_2_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx
open scoped BigOperators

/-! ## The index columns read at a pair -/

/-- The wrapped index column at pair `p` is the pair's index word, wrapped. -/
theorem wrapCol_apply (I : (⟨S4000000, .i32⟩ : BufTy).Contents (Elt Ideal)) (p : Fin 4000000) :
    wrapCol (F := Ideal) I (ix2 p (0 : Fin 1)) = Cert.Lddt.wrapWord (I (ix1 p)) := by
  unfold wrapCol
  rw [broadcastInDim_apply _ _ _ _ (ix1 p) (by
    intro a
    match a with
    | ⟨0, _⟩ => rfl)]
  rfl

/-! ## The two gathers read at an index -/

section Gather
variable {α : Type}

/-- The start-indices index a result index of the [5, 4000000, 3] gather reads: the pair's row of the index column. -/
theorem siIdx_pred (s : Fin 5) (p : Fin 4000000) (c : Fin 3) (k : Fin gather_S5x20000x3_S4000000x1_S5x4000000x3_02_1_n_n_1_1_513.startIndexMap.length) :
    gather_S5x20000x3_S4000000x1_S5x4000000x3_02_1_n_n_1_1_513.siIdx (ix3 s p c) k = ix2 p (0 : Fin 1) := by
  funext b
  refine Fin.ext ?_
  match b with
  | ⟨0, _⟩ => rfl
  | ⟨1, _⟩ =>
    have hk : k.val < 1 := k.isLt
    show k.val = 0
    omega

/-- The gather of the [5, 20000, 3] table at (s, p, c): the table at (s, the clamped start index of pair p, c).  On the
    sample and coordinate axes the operand index is the result's offset coordinate (no start, no batching); on the atom
    axis it is the start index read signed and clamped into the 20000 atoms (the slice there has one element). -/
theorem gatherPred_apply (A0 : S5x20000x3.Idx → α) (J : IVec S4000000x1 32) (s : Fin 5) (p : Fin 4000000) (c : Fin 3) :
    Host.gather gather_S5x20000x3_S4000000x1_S5x4000000x3_02_1_n_n_1_1_513 A0 J (ix3 s p c)
      = A0 (ix3 s ⟨min (J (ix2 p (0 : Fin 1))).toInt.toNat 19999, by omega⟩ c) := by
  unfold Host.gather
  congr 1
  funext a
  refine Fin.ext ?_
  match a with
  | ⟨0, _⟩ =>
    show gather_S5x20000x3_S4000000x1_S5x4000000x3_02_1_n_n_1_1_513.start (ix3 s p c) J 0 + gather_S5x20000x3_S4000000x1_S5x4000000x3_02_1_n_n_1_1_513.batchCoord (ix3 s p c) 0 + gather_S5x20000x3_S4000000x1_S5x4000000x3_02_1_n_n_1_1_513.offCoord (ix3 s p c) 0 = s.val
    rw [show gather_S5x20000x3_S4000000x1_S5x4000000x3_02_1_n_n_1_1_513.start (ix3 s p c) J 0 = 0 from rfl, show gather_S5x20000x3_S4000000x1_S5x4000000x3_02_1_n_n_1_1_513.batchCoord (ix3 s p c) 0 = 0 from rfl,
      show gather_S5x20000x3_S4000000x1_S5x4000000x3_02_1_n_n_1_1_513.offCoord (ix3 s p c) 0 = s.val from rfl]
    omega
  | ⟨1, _⟩ =>
    show gather_S5x20000x3_S4000000x1_S5x4000000x3_02_1_n_n_1_1_513.start (ix3 s p c) J 1 + gather_S5x20000x3_S4000000x1_S5x4000000x3_02_1_n_n_1_1_513.batchCoord (ix3 s p c) 1 + gather_S5x20000x3_S4000000x1_S5x4000000x3_02_1_n_n_1_1_513.offCoord (ix3 s p c) 1
      = min (J (ix2 p (0 : Fin 1))).toInt.toNat 19999
    rw [show gather_S5x20000x3_S4000000x1_S5x4000000x3_02_1_n_n_1_1_513.batchCoord (ix3 s p c) 1 = 0 from rfl, show gather_S5x20000x3_S4000000x1_S5x4000000x3_02_1_n_n_1_1_513.offCoord (ix3 s p c) 1 = 0 from rfl]
    unfold GatherDims.start
    rw [dif_pos (show (1 : Fin 3) ∈ gather_S5x20000x3_S4000000x1_S5x4000000x3_02_1_n_n_1_1_513.startIndexMap from List.mem_singleton.mpr rfl), siIdx_pred]
    rfl
  | ⟨2, _⟩ =>
    show gather_S5x20000x3_S4000000x1_S5x4000000x3_02_1_n_n_1_1_513.start (ix3 s p c) J 2 + gather_S5x20000x3_S4000000x1_S5x4000000x3_02_1_n_n_1_1_513.batchCoord (ix3 s p c) 2 + gather_S5x20000x3_S4000000x1_S5x4000000x3_02_1_n_n_1_1_513.offCoord (ix3 s p c) 2 = c.val
    rw [show gather_S5x20000x3_S4000000x1_S5x4000000x3_02_1_n_n_1_1_513.start (ix3 s p c) J 2 = 0 from rfl, show gather_S5x20000x3_S4000000x1_S5x4000000x3_02_1_n_n_1_1_513.batchCoord (ix3 s p c) 2 = 0 from rfl,
      show gather_S5x20000x3_S4000000x1_S5x4000000x3_02_1_n_n_1_1_513.offCoord (ix3 s p c) 2 = c.val from rfl]
    omega

/-- The same with the start index's word named: the form a caller rewrites the word in. -/
theorem gatherPred_apply_of_eq (A0 : S5x20000x3.Idx → α) (J : IVec S4000000x1 32) (s : Fin 5) (p : Fin 4000000) (c : Fin 3)
    (w : BitVec 32) (hw : J (ix2 p (0 : Fin 1)) = w) :
    Host.gather gather_S5x20000x3_S4000000x1_S5x4000000x3_02_1_n_n_1_1_513 A0 J (ix3 s p c) = A0 (ix3 s ⟨min w.toInt.toNat 19999, by omega⟩ c) := by
  subst hw
  exact gatherPred_apply A0 J s p c

/-- The start-indices index a result index of the [4000000, 3] gather reads: the pair's row of the index column. -/
theorem siIdx_true (p : Fin 4000000) (c : Fin 3) (k : Fin gather_S20000x3_S4000000x1_S4000000x3_1_0_n_n_0_1_13.startIndexMap.length) :
    gather_S20000x3_S4000000x1_S4000000x3_1_0_n_n_0_1_13.siIdx (ix2 p c) k = ix2 p (0 : Fin 1) := by
  funext b
  refine Fin.ext ?_
  match b with
  | ⟨0, _⟩ => rfl
  | ⟨1, _⟩ =>
    have hk : k.val < 1 := k.isLt
    show k.val = 0
    omega

/-- The gather of the [20000, 3] table at (p, c): the table at (the clamped start index of pair p, c). -/
theorem gatherTrue_apply (A1 : S20000x3.Idx → α) (J : IVec S4000000x1 32) (p : Fin 4000000) (c : Fin 3) :
    Host.gather gather_S20000x3_S4000000x1_S4000000x3_1_0_n_n_0_1_13 A1 J (ix2 p c)
      = A1 (ix2 ⟨min (J (ix2 p (0 : Fin 1))).toInt.toNat 19999, by omega⟩ c) := by
  unfold Host.gather
  congr 1
  funext a
  refine Fin.ext ?_
  match a with
  | ⟨0, _⟩ =>
    show gather_S20000x3_S4000000x1_S4000000x3_1_0_n_n_0_1_13.start (ix2 p c) J 0 + gather_S20000x3_S4000000x1_S4000000x3_1_0_n_n_0_1_13.batchCoord (ix2 p c) 0 + gather_S20000x3_S4000000x1_S4000000x3_1_0_n_n_0_1_13.offCoord (ix2 p c) 0
      = min (J (ix2 p (0 : Fin 1))).toInt.toNat 19999
    rw [show gather_S20000x3_S4000000x1_S4000000x3_1_0_n_n_0_1_13.batchCoord (ix2 p c) 0 = 0 from rfl, show gather_S20000x3_S4000000x1_S4000000x3_1_0_n_n_0_1_13.offCoord (ix2 p c) 0 = 0 from rfl]
    unfold GatherDims.start
    rw [dif_pos (show (0 : Fin 2) ∈ gather_S20000x3_S4000000x1_S4000000x3_1_0_n_n_0_1_13.startIndexMap from List.mem_singleton.mpr rfl), siIdx_true]
    rfl
  | ⟨1, _⟩ =>
    show gather_S20000x3_S4000000x1_S4000000x3_1_0_n_n_0_1_13.start (ix2 p c) J 1 + gather_S20000x3_S4000000x1_S4000000x3_1_0_n_n_0_1_13.batchCoord (ix2 p c) 1 + gather_S20000x3_S4000000x1_S4000000x3_1_0_n_n_0_1_13.offCoord (ix2 p c) 1 = c.val
    rw [show gather_S20000x3_S4000000x1_S4000000x3_1_0_n_n_0_1_13.start (ix2 p c) J 1 = 0 from rfl, show gather_S20000x3_S4000000x1_S4000000x3_1_0_n_n_0_1_13.batchCoord (ix2 p c) 1 = 0 from rfl,
      show gather_S20000x3_S4000000x1_S4000000x3_1_0_n_n_0_1_13.offCoord (ix2 p c) 1 = c.val from rfl]
    omega

/-- The same with the start index's word named. -/
theorem gatherTrue_apply_of_eq (A1 : S20000x3.Idx → α) (J : IVec S4000000x1 32) (p : Fin 4000000) (c : Fin 3)
    (w : BitVec 32) (hw : J (ix2 p (0 : Fin 1)) = w) :
    Host.gather gather_S20000x3_S4000000x1_S4000000x3_1_0_n_n_0_1_13 A1 J (ix2 p c) = A1 (ix2 ⟨min w.toInt.toNat 19999, by omega⟩ c) := by
  subst hw
  exact gatherTrue_apply A1 J p c

end Gather

end Cert.ReferenceIdeal.RefValue

end
-- ==== Proof.RefRead.lean ====
/-
  The reference's value read at an index, at the ideal instance.

  Every operation of `refOut` is read at explicit coordinates: the gathers by the lemmas of the gather module, a
  broadcast by the coordinates it repeats, a sum over one axis as the initial word plus the sum over that axis's
  coordinates, the elementwise operations by definition.  The result, per sample, is the mean over the pairs of the
  pair scores of the specification.
-/
import proofs.«147747_j84817014161962_2_alg».proof.Proof.RefGather

noncomputable section

namespace Cert.ReferenceIdeal.RefValue

open Cert.ReferenceIdeal Cert.ReferenceIdeal.Gen Idealize.ShloMosaic Idealize.ShloMosaic.ValueIdx
open scoped BigOperators

/-! ## The reduced axes: witnesses, and the index a sum's term reads -/

theorem reduces_pred : S5x4000000x3.Reduces [2] S5x4000000 := by decide
theorem reduces_true : S4000000x3.Reduces [1] S4000000 := by decide
theorem reduces_thr : S5x4000000x4.Reduces [2] S5x4000000 := by decide
theorem reduces_pairs : S5x4000000.Reduces [1] S5 := by decide

theorem lift_pred (s : Fin 5) (p : Fin 4000000) (k : Fin 3) : reduces_pred.lift (ix2 s p) k = ix3 s p k := by
  funext a; refine Fin.ext ?_
  match a with
  | ⟨0, _⟩ => rfl
  | ⟨1, _⟩ => rfl
  | ⟨2, _⟩ => rfl

theorem lift_true (p : Fin 4000000) (k : Fin 3) : reduces_true.lift (ix1 p) k = ix2 p k := by
  funext a; refine Fin.ext ?_
  match a with
  | ⟨0, _⟩ => rfl
  | ⟨1, _⟩ => rfl

theorem lift_thr (s : Fin 5) (p : Fin 4000000) (k : Fin 4) : reduces_thr.lift (ix2 s p) k = ix3 s p k := by
  funext a; refine Fin.ext ?_
  match a with
  | ⟨0, _⟩ => rfl
  | ⟨1, _⟩ => rfl
  | ⟨2, _⟩ => rfl

theorem lift_pairs (s : Fin 5) (p : Fin 4000000) : reduces_pairs.lift (ix1 s) p = ix2 s p := by
  funext a; refine Fin.ext ?_
  match a with
  | ⟨0, _⟩ => rfl
  | ⟨1, _⟩ => rfl

/-! ## The broadcasts, at explicit coordinates -/

section Bcast
variable {α : Type}

/-- A per-pair array repeated along the samples (in two steps) reads the pair's element. -/
theorem bcast_pairs_apply (x : S4000000.Idx → α) (s : Fin 5) (p : Fin 4000000) :
    broadcastInDim S5x4000000 ![0, 1] bcast_S1x4000000_S5x4000000_0_1
        (broadcastInDim S1x4000000 ![1] bcast_S4000000_S1x4000000_1 x) (ix2 s p) = x (ix1 p) := by
  rw [broadcastInDim_apply _ _ _ _ (ix2 (0 : Fin 1) p) (by
      intro a
      match a with
      | ⟨0, _⟩ => rfl
      | ⟨1, _⟩ => rfl),
    broadcastInDim_apply _ _ _ _ (ix1 p) (by
      intro a
      match a with
      | ⟨0, _⟩ => rfl)]

/-- A per-sample-and-pair array repeated along the thresholds (in two steps) reads the sample and pair's element. -/
theorem bcast_err_apply (x : S5x4000000.Idx → α) (s : Fin 5) (p : Fin 4000000) (k : Fin 4) :
    broadcastInDim S5x4000000x4 ![0, 1, 2] bcast_S5x4000000x1_S5x4000000x4_0_1_2
        (broadcastInDim S5x4000000x1 ![0, 1] bcast_S5x4000000_S5x4000000x1_0_1 x) (ix3 s p k) = x (ix2 s p) := by
  rw [broadcastInDim_apply _ _ _ _ (ix3 s p (0 : Fin 1)) (by
      intro a
      match a with
      | ⟨0, _⟩ => rfl
      | ⟨1, _⟩ => rfl
      | ⟨2, _⟩ => rfl),
    broadcastInDim_apply _ _ _ _ (ix2 s p) (by
      intro a
      match a with
      | ⟨0, _⟩ => rfl
      | ⟨1, _⟩ => rfl)]

/-- The table of thresholds repeated along the samples and the pairs (in two steps) reads the threshold's entry. -/
theorem bcast_thr_apply (x : S4.Idx → α) (s : Fin 5) (p : Fin 4000000) (k : Fin 4) :
    broadcastInDim S5x4000000x4 ![0, 1, 2] bcast_S1x1x4_S5x4000000x4_0_1_2
        (broadcastInDim S1x1x4 ![2] bcast_S4_S1x1x4_2 x) (ix3 s p k) = x (ix1 k) := by
  rw [broadcastInDim_apply _ _ _ _ (ix3 (0 : Fin 1) (0 : Fin 1) k) (by
      intro a
      match a with
      | ⟨0, _⟩ => rfl
      | ⟨1, _⟩ => rfl
      | ⟨2, _⟩ => rfl),
    broadcastInDim_apply _ _ _ _ (ix1 k) (by
      intro a
      match a with
      | ⟨0, _⟩ => rfl)]

end Bcast

/-! ## The elementwise host operations at an index, with the head made syntactic -/

theorem hsqrt_at {s : Shape} (v : FVec Ideal s .f32) (i : s.Idx) : Host.sqrt v i = Ideal.sqrt (v i) := rfl
theorem habs_at {s : Shape} (v : FVec Ideal s .f32) (i : s.Idx) : Host.absf v i = max (v i) (-(v i)) := rfl
theorem uitofp_at {s : Shape} (x : IVec s 1) (i : s.Idx) :
    (uitofp .f32 x : FVec Ideal s .f32) i = (((x i).toNat : ℝ) : EReal) := rfl
theorem cmpf_at {s : Shape} (a b : FVec Ideal s .f32) (i : s.Idx) : cmpf .olt a b i = Ideal.cmp .olt (a i) (b i) := rfl

/-! ## The distances -/

/-- The predicted points' difference at (s, p, c): the two selected atoms' coordinates subtracted. -/
theorem predDiff_apply (A0 : (⟨S5x20000x3, .f32⟩ : BufTy).Contents (Elt Ideal)) (I2 I3 : (⟨S4000000, .i32⟩ : BufTy).Contents (Elt Ideal))
    (s : Fin 5) (p : Fin 4000000) (c : Fin 3) :
    predDiff (F := Ideal) A0 I2 I3 (ix3 s p c)
      = A0 (ix3 s (Cert.Lddt.atom (I2 (ix1 p))) c) - A0 (ix3 s (Cert.Lddt.atom (I3 (ix1 p))) c) := by
  unfold predDiff
  rw [subf_apply, gatherPred_apply_of_eq A0 _ s p c _ (wrapCol_apply I2 p),
    gatherPred_apply_of_eq A0 _ s p c _ (wrapCol_apply I3 p)]
  rfl

/-- The true points' difference at (p, c). -/
theorem trueDiff_apply (A1 : (⟨S20000x3, .f32⟩ : BufTy).Contents (Elt Ideal)) (I2 I3 : (⟨S4000000, .i32⟩ : BufTy).Contents (Elt Ideal))
    (p : Fin 4000000) (c : Fin 3) :
    trueDiff (F := Ideal) A1 I2 I3 (ix2 p c)
      = A1 (ix2 (Cert.Lddt.atom (I2 (ix1 p))) c) - A1 (ix2 (Cert.Lddt.atom (I3 (ix1 p))) c) := by
  unfold trueDiff
  rw [subf_apply, gatherTrue_apply_of_eq A1 _ p c _ (wrapCol_apply I2 p),
    gatherTrue_apply_of_eq A1 _ p c _ (wrapCol_apply I3 p)]
  rfl

/-- The predicted distance at (s, p): the root of the zero word plus the three squared differences. -/
theorem predDist_apply (A0 : (⟨S5x20000x3, .f32⟩ : BufTy).Contents (Elt Ideal)) (I2 I3 : (⟨S4000000, .i32⟩ : BufTy).Contents (Elt Ideal))
    (s : Fin 5) (p : Fin 4000000) :
    predDist (F := Ideal) A0 I2 I3 (ix2 s p)
      = Ideal.sqrt (Cert.Lddt.sqDist (fun c => A0 (ix3 s (Cert.Lddt.atom (I2 (ix1 p))) c))
          (fun c => A0 (ix3 s (Cert.Lddt.atom (I3 (ix1 p))) c))) := by
  unfold predDist Cert.Lddt.sqDist
  refine (hsqrt_at _ _).trans (congrArg Ideal.sqrt ?_)
  rw [hostReduceAdd_apply, Ideal.hostReduceAdd_single _ reduces_pred, constant_apply]
  refine congrArg (Cert.Lddt.z32 + ·) (Finset.sum_congr rfl ?_)
  intro (k : Fin 3) _
  rw [lift_pred, mulf_apply, predDiff_apply]

/-- The true distance at p. -/
theorem trueDist_apply (A1 : (⟨S20000x3, .f32⟩ : BufTy).Contents (Elt Ideal)) (I2 I3 : (⟨S4000000, .i32⟩ : BufTy).Contents (Elt Ideal)) (p : Fin 4000000) :
    trueDist (F := Ideal) A1 I2 I3 (ix1 p)
      = Ideal.sqrt (Cert.Lddt.sqDist (fun c => A1 (ix2 (Cert.Lddt.atom (I2 (ix1 p))) c))
          (fun c => A1 (ix2 (Cert.Lddt.atom (I3 (ix1 p))) c))) := by
  unfold trueDist Cert.Lddt.sqDist
  refine (hsqrt_at _ _).trans (congrArg Ideal.sqrt ?_)
  rw [hostReduceAdd_apply, Ideal.hostReduceAdd_single _ reduces_true, constant_apply]
  refine congrArg (Cert.Lddt.z32 + ·) (Finset.sum_congr rfl ?_)
  intro (k : Fin 3) _
  rw [lift_true, mulf_apply, trueDiff_apply]

/-! ## The error, the score, the mean -/

/-- The absolute error at (s, p) is the specification's pair error. -/
theorem absErr_apply (A0 : (⟨S5x20000x3, .f32⟩ : BufTy).Contents (Elt Ideal)) (A1 : (⟨S20000x3, .f32⟩ : BufTy).Contents (Elt Ideal))
    (I2 I3 : (⟨S4000000, .i32⟩ : BufTy).Contents (Elt Ideal)) (s : Fin 5) (p : Fin 4000000) :
    absErr (F := Ideal) A0 A1 I2 I3 (ix2 s p) = Cert.Lddt.pairErr A0 A1 I2 I3 s p := by
  unfold absErr Cert.Lddt.pairErr Cert.Lddt.absErr
  refine (habs_at _ _).trans ?_
  rw [subf_apply, bcast_pairs_apply, predDist_apply, trueDist_apply]

/-- The table of thresholds holds the specification's four words. -/
theorem thresholds_apply (k : Fin 4) : thresholds (F := Ideal) (ix1 k) = Ideal.ofBits .f32 (Cert.Lddt.thr k) := by
  unfold thresholds
  refine congrArg (Ideal.ofBits .f32) ?_
  fin_cases k <;> rfl

/-- The pair score at (s, p) is the specification's score of the pair's error. -/
theorem pairScore_apply (A0 : (⟨S5x20000x3, .f32⟩ : BufTy).Contents (Elt Ideal)) (A1 : (⟨S20000x3, .f32⟩ : BufTy).Contents (Elt Ideal))
    (I2 I3 : (⟨S4000000, .i32⟩ : BufTy).Contents (Elt Ideal)) (s : Fin 5) (p : Fin 4000000) :
    pairScore (F := Ideal) A0 A1 I2 I3 (ix2 s p) = Cert.Lddt.scoreR (Cert.Lddt.pairErr A0 A1 I2 I3 s p) := by
  unfold pairScore Cert.Lddt.scoreR
  rw [hostDivf_apply, hostReduceAdd_apply, Ideal.hostReduceAdd_single _ reduces_thr, broadcastInDim_scalar_apply,
    constant_apply, constant_apply]
  refine congrArg₂ Ideal.div (congrArg (Cert.Lddt.z32 + ·) (Finset.sum_congr rfl ?_)) rfl
  intro (k : Fin 4) _
  rw [lift_thr, uitofp_at, cmpf_at, bcast_err_apply, bcast_thr_apply, absErr_apply, thresholds_apply]
  rfl

/-- The reference's result for sample `s`: the mean over the pairs of the specification's pair scores. -/
theorem refOut_apply (A0 : (⟨S5x20000x3, .f32⟩ : BufTy).Contents (Elt Ideal)) (A1 : (⟨S20000x3, .f32⟩ : BufTy).Contents (Elt Ideal))
    (I2 I3 : (⟨S4000000, .i32⟩ : BufTy).Contents (Elt Ideal)) (s : Fin 5) :
    refOut (F := Ideal) A0 A1 I2 I3 (ValueIdx.ix1 s)
      = Cert.Lddt.totalR (fun p => Cert.Lddt.scoreR (Cert.Lddt.pairErr A0 A1 I2 I3 s p)) := by
  unfold refOut Cert.Lddt.totalR
  rw [hostDivf_apply, hostReduceAdd_apply, Ideal.hostReduceAdd_single _ reduces_pairs, broadcastInDim_scalar_apply,
    constant_apply, constant_apply]
  refine congrArg₂ Ideal.div (congrArg (Cert.Lddt.z32 + ·) (Finset.sum_congr rfl ?_)) rfl
  intro (p : Fin 4000000) _
  rw [lift_pairs, pairScore_apply]

end Cert.ReferenceIdeal.RefValue

end
-- ==== Proof.lean ====
/-
  The pairwise distance score kernel against its reference: the five claims.

  Both programs, on the extended reals, give for sample `s` the mean over the 4000000 index pairs of a quarter of the
  number of thresholds 1/2, 1, 2, 4 that lie strictly above the absolute difference between the predicted and the true
  distance of the two atoms the pair selects (Proof/Spec.lean). The kernel program gathers the endpoints with the space
  axis before the pair axis, runs 125 grid points of 32000 pairs each that add block sums into a [5, 1] accumulator
  written back once, scaled by the named rational 1/4000000, and reads the accumulator as a [5] vector: its result at
  `s` is `totalK` of the kernel's spelling `scoreK` of the pair scores (Proof/KFold.lean, `kOut_apply`). The reference
  gathers with the space axis last, sums the four indicators and divides by 4, sums all pairs and divides by
  4000000: its result at `s` is `totalR` of `scoreR` (Proof/RefRead.lean, `refOut_apply`). The two spellings of a pair's
  score agree (`scoreK_eq_scoreR`) and so do the two means (`totalK_eq_totalR`): regroupings of sums of extended reals and
  `x / c = x · (1/c)` for a nonzero real `c`. The precondition is not used by the value claim.

  The kernel programs' frames are the generated frame certificates; the reference has no kernel and its frame is its
  run with the result dropped. The one rewrite of the ideal pass named the reciprocal 1/4000000: its statement.
-/
import proofs.«147747_j84817014161962_2_alg».proof.Defs
import proofs.«147747_j84817014161962_2_alg».proof.Proof.Gen.Kernel
import proofs.«147747_j84817014161962_2_alg».proof.Proof.Gen.Kernel.Frame
import proofs.«147747_j84817014161962_2_alg».proof.Proof.Gen.KernelIdeal
import proofs.«147747_j84817014161962_2_alg».proof.Proof.Gen.KernelIdeal.Frame
import proofs.«147747_j84817014161962_2_alg».proof.Proof.Gen.ReferenceIdeal
import proofs.«147747_j84817014161962_2_alg».proof.Proof.Gen.Pre_finite_inputs
import proofs.«147747_j84817014161962_2_alg».proof.Proof.Spec
import proofs.«147747_j84817014161962_2_alg».proof.Proof.KFold
import proofs.«147747_j84817014161962_2_alg».proof.Proof.RefRun
import proofs.«147747_j84817014161962_2_alg».proof.Proof.RefRead
import Idealize.ShloMosaic.PureOps.IdealRules
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- The ledger's one entry: the table gives the name the value 1/4000000, and the printed constant is that value. -/
theorem preserves : Cert.preserves_Kernel_KernelIdeal :=
  IdealRules.named_const.statement Cert.KernelIdeal.κ "inv_4000000" .f32 0x348637BD#32 ((1 / 4000000 : ℝ) : EReal) rfl

/-- The two results are one function of arguments that agree: at each sample, the blockwise mean of the chained
    quarter-counts is the whole mean of the summed quarter-counts. -/
theorem algebraic : Cert.algebraic_KernelIdeal_ReferenceIdeal := by
  intro m ρ m' ρ' _ hagree
  refine ⟨fun c => Cert.KernelIdeal.KValue.kOut m c, Cert.KernelIdeal.KValue.run m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2]
  funext j
  obtain ⟨s, rfl⟩ : ∃ s : Fin 5, j = ix1 s := ⟨j 0, eq_ix1 j⟩
  refine (Cert.ReferenceIdeal.RefValue.refOut_apply _ _ _ _ s).trans ?_
  refine ((Cert.Lddt.totalK_eq_totalR _).symm.trans ?_).trans (Cert.KernelIdeal.KValue.kOut_apply m c s).symm
  exact congrArg Cert.Lddt.totalK (funext fun p => (Cert.Lddt.scoreK_eq_scoreR _).symm)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
